-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2048 : Shape := ⟨1, ![2048]⟩
abbrev S16x16x2048x128 : Shape := ⟨4, ![16, 16, 2048, 128]⟩
abbrev S16x16x4096x128 : Shape := ⟨4, ![16, 16, 4096, 128]⟩
abbrev S16x16x4096 : Shape := ⟨3, ![16, 16, 4096]⟩
abbrev S_ : Shape := ⟨0, ![]⟩

class Facts : Prop where
  bcast_S_S16x16x2048x128 : S_.BroadcastsInDim S16x16x2048x128 (![] : Fin 0 → Fin S16x16x2048x128.rank)
  reducesTo_S16x16x2048x128_S_d0_1_2_3 : S16x16x2048x128.ReducesTo [0, 1, 2, 3] S_
  h_S_ : 0 < S_.numel
  bcast_S_S16x16x4096x128 : S_.BroadcastsInDim S16x16x4096x128 (![] : Fin 0 → Fin S16x16x4096x128.rank)
  reducesTo_S16x16x4096x128_S_d0_1_2_3 : S16x16x4096x128.ReducesTo [0, 1, 2, 3] S_
  bcast_S_S2048 : S_.BroadcastsInDim S2048 (![] : Fin 0 → Fin S2048.rank)
  reducesTo_S2048_S_d0 : S2048.ReducesTo [0] S_
  bcast_S_S16x16x4096 : S_.BroadcastsInDim S16x16x4096 (![] : Fin 0 → Fin S16x16x4096.rank)
  reducesTo_S16x16x4096_S_d0_1_2 : S16x16x4096.ReducesTo [0, 1, 2] S_

variable [Facts]

def fn_part1 {F : FTy → Type} [FloatOps F] (main_arg0 : IVec S2048 32) (main_arg5 : IVec S16x16x4096 32) (main_v13 : IVec S_ 1) (main_v16 : IVec S16x16x4096x128 1) : IVec S_ 1 :=
  let main_c_5 : IVec S_ 1 := constantI S_ 1 1#1
  let main_v17 : IVec S_ 1 := (fun x v => Host.reduce IntOp.andi x v reducesTo_S16x16x4096x128_S_d0_1_2_3 h_S_) main_v16 main_c_5
  let main_v18 : IVec S_ 1 := andi main_v13 main_v17
  let main_c_6 : IVec S_ 32 := constantI S_ 32 0#32
  let main_v19 : IVec S2048 32 := broadcastInDim S2048 ![] bcast_S_S2048 main_c_6
  let main_v20 : IVec S2048 1 := cmpi .sge main_arg0 main_v19
  let main_c_7 : IVec S_ 32 := constantI S_ 32 2047#32
  let main_v21 : IVec S2048 32 := broadcastInDim S2048 ![] bcast_S_S2048 main_c_7
  let main_v22 : IVec S2048 1 := cmpi .sle main_arg0 main_v21
  let main_v23 : IVec S2048 1 := andi main_v20 main_v22
  let main_c_8 : IVec S_ 1 := constantI S_ 1 1#1
  let main_v24 : IVec S_ 1 := (fun x v => Host.reduce IntOp.andi x v reducesTo_S2048_S_d0 h_S_) main_v23 main_c_8
  let main_v25 : IVec S_ 1 := andi main_v18 main_v24
  let main_c_9 : IVec S_ 32 := constantI S_ 32 4294967295#32
  let main_v26 : IVec S16x16x4096 32 := broadcastInDim S16x16x4096 ![] bcast_S_S16x16x4096 main_c_9
  let main_v27 : IVec S16x16x4096 1 := cmpi .sge main_arg5 main_v26
  let main_c_10 : IVec S_ 32 := constantI S_ 32 4294967295#32
  let main_v28 : IVec S16x16x4096 32 := broadcastInDim S16x16x4096 ![] bcast_S_S16x16x4096 main_c_10
  let main_v29 : IVec S16x16x4096 1 := cmpi .sle main_arg5 main_v28
  let main_v30 : IVec S16x16x4096 1 := andi main_v27 main_v29
  let main_c_11 : IVec S_ 1 := constantI S_ 1 1#1
  let main_v31 : IVec S_ 1 := (fun x v => Host.reduce IntOp.andi x v reducesTo_S16x16x4096_S_d0_1_2 h_S_) main_v30 main_c_11
  let main_v32 : IVec S_ 1 := andi main_v25 main_v31
  main_v32

def fn {F : FTy → Type} [FloatOps F] (main_arg0 : IVec S2048 32) (main_arg1 : FVec F S16x16x2048x128 .f32) (main_arg2 : FVec F S16x16x2048x128 .f32) (main_arg3 : FVec F S16x16x4096x128 .f32) (main_arg4 : FVec F S16x16x4096x128 .f32) (main_arg5 : IVec S16x16x4096 32) : IVec S_ 1 :=
  let main_v0 : FVec F S16x16x2048x128 .f32 := Host.absf main_arg1
  let main_cst : FVec F S_ .f32 := constant S_ .f32 0x7F800000#32
  let main_v1 : FVec F S16x16x2048x128 .f32 := broadcastInDim S16x16x2048x128 ![] bcast_S_S16x16x2048x128 main_cst
  let main_v2 : IVec S16x16x2048x128 1 := cmpf .olt main_v0 main_v1
  let main_c : IVec S_ 1 := constantI S_ 1 1#1
  let main_v3 : IVec S_ 1 := (fun x v => Host.reduce IntOp.andi x v reducesTo_S16x16x2048x128_S_d0_1_2_3 h_S_) main_v2 main_c
  let main_v4 : FVec F S16x16x2048x128 .f32 := Host.absf main_arg2
  let main_cst_0 : FVec F S_ .f32 := constant S_ .f32 0x7F800000#32
  let main_v5 : FVec F S16x16x2048x128 .f32 := broadcastInDim S16x16x2048x128 ![] bcast_S_S16x16x2048x128 main_cst_0
  let main_v6 : IVec S16x16x2048x128 1 := cmpf .olt main_v4 main_v5
  let main_c_1 : IVec S_ 1 := constantI S_ 1 1#1
  let main_v7 : IVec S_ 1 := (fun x v => Host.reduce IntOp.andi x v reducesTo_S16x16x2048x128_S_d0_1_2_3 h_S_) main_v6 main_c_1
  let main_v8 : IVec S_ 1 := andi main_v3 main_v7
  let main_v9 : FVec F S16x16x4096x128 .f32 := Host.absf main_arg3
  let main_cst_2 : FVec F S_ .f32 := constant S_ .f32 0x7F800000#32
  let main_v10 : FVec F S16x16x4096x128 .f32 := broadcastInDim S16x16x4096x128 ![] bcast_S_S16x16x4096x128 main_cst_2
  let main_v11 : IVec S16x16x4096x128 1 := cmpf .olt main_v9 main_v10
  let main_c_3 : IVec S_ 1 := constantI S_ 1 1#1
  let main_v12 : IVec S_ 1 := (fun x v => Host.reduce IntOp.andi x v reducesTo_S16x16x4096x128_S_d0_1_2_3 h_S_) main_v11 main_c_3
  let main_v13 : IVec S_ 1 := andi main_v8 main_v12
  let main_v14 : FVec F S16x16x4096x128 .f32 := Host.absf main_arg4
  let main_cst_4 : FVec F S_ .f32 := constant S_ .f32 0x7F800000#32
  let main_v15 : FVec F S16x16x4096x128 .f32 := broadcastInDim S16x16x4096x128 ![] bcast_S_S16x16x4096x128 main_cst_4
  let main_v16 : IVec S16x16x4096x128 1 := cmpf .olt main_v14 main_v15
  fn_part1 (F := F) main_arg0 main_arg5 main_v13 main_v16
-- ==== Kernel.lean ====
abbrev S2048 : Shape := ⟨1, ![2048]⟩
abbrev S16x16x2048x128 : Shape := ⟨4, ![16, 16, 2048, 128]⟩
abbrev S16x16x4096x128 : Shape := ⟨4, ![16, 16, 4096, 128]⟩
abbrev S16x16x4096 : Shape := ⟨3, ![16, 16, 4096]⟩
abbrev S67108864 : Shape := ⟨1, ![67108864]⟩
abbrev S_ : Shape := ⟨0, ![]⟩
abbrev S2097152 : Shape := ⟨1, ![2097152]⟩

abbrev nBuf : Table → Nat
  | .hbm => 12
  | _ => 0

abbrev bufTy : (tb : Table) → Fin (nBuf tb) → BufTy
  | .hbm, ⟨0, _⟩ => ⟨S2048, .i32⟩
  | .hbm, ⟨1, _⟩ => ⟨S16x16x2048x128, .f32⟩
  | .hbm, ⟨2, _⟩ => ⟨S16x16x2048x128, .f32⟩
  | .hbm, ⟨3, _⟩ => ⟨S16x16x4096x128, .f32⟩
  | .hbm, ⟨4, _⟩ => ⟨S16x16x4096x128, .f32⟩
  | .hbm, ⟨5, _⟩ => ⟨S16x16x4096, .i32⟩
  | .hbm, ⟨6, _⟩ => ⟨S67108864, .f32⟩
  | .hbm, ⟨7, _⟩ => ⟨S67108864, .f32⟩
  | .hbm, ⟨8, _⟩ => ⟨S67108864, .f32⟩
  | .hbm, ⟨9, _⟩ => ⟨S67108864, .f32⟩
  | .hbm, ⟨10, _⟩ => ⟨S16x16x2048x128, .f32⟩
  | .hbm, ⟨11, _⟩ => ⟨S16x16x2048x128, .f32⟩
  | _, _ => ⟨S2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v0_scv : Ref sig .scVector := ⟨.hbm, 6, rfl⟩
abbrev main_v1_scv : Ref sig .scVector := ⟨.hbm, 7, rfl⟩
abbrev main_v2_0_scv : Ref sig .scVector := ⟨.hbm, 8, rfl⟩
abbrev main_v2_1_scv : Ref sig .scVector := ⟨.hbm, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2097152_i32 : BitVec 32 := 2097152#32
  let v2 : BitVec 32 := Scalar.muli v1 c2097152_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16x16x2048x128_S67108864 : S16x16x2048x128.ShapeCasts S67108864
  shapeCasts_S67108864_S16x16x2048x128 : S67108864.ShapeCasts S16x16x2048x128
  hcc0_scratch0 : 0 + S_.numel ≤ 2
  hcc0_scratch1 : 1 + S_.numel ≤ 2
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S2097152.size a ≤ S67108864.size a

variable [Facts₀]

abbrev cc0_scratch0 : DmaSems sig S_ := SemArray.consecutive 0 S_ hcc0_scratch0
abbrev cc0_scratch1 : DmaSems sig S_ := SemArray.consecutive 1 S_ hcc0_scratch1

class Facts : Prop extends Facts₀ where

variable [Facts]
-- ==== ReferenceIdeal.lean ====
abbrev S2048 : Shape := ⟨1, ![2048]⟩
abbrev S16x16x2048x128 : Shape := ⟨4, ![16, 16, 2048, 128]⟩
abbrev S16x16x4096x128 : Shape := ⟨4, ![16, 16, 4096, 128]⟩
abbrev S16x16x4096 : Shape := ⟨3, ![16, 16, 4096]⟩
abbrev S1x1x2048 : Shape := ⟨3, ![1, 1, 2048]⟩
abbrev S_ : Shape := ⟨0, ![]⟩
abbrev S2048x1 : Shape := ⟨2, ![2048, 1]⟩
abbrev S16x16x2048 : Shape := ⟨3, ![16, 16, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2048, .i32⟩
  | .hbm, ⟨1, _⟩ => ⟨S16x16x2048x128, .f32⟩
  | .hbm, ⟨2, _⟩ => ⟨S16x16x2048x128, .f32⟩
  | .hbm, ⟨3, _⟩ => ⟨S16x16x4096x128, .f32⟩
  | .hbm, ⟨4, _⟩ => ⟨S16x16x4096x128, .f32⟩
  | .hbm, ⟨5, _⟩ => ⟨S16x16x4096, .i32⟩
  | .hbm, ⟨6, _⟩ => ⟨S2048, .i32⟩
  | .hbm, ⟨7, _⟩ => ⟨S1x1x2048, .i32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S2048x1, .i32⟩
  | .hbm, ⟨16, _⟩ => ⟨S16x16x2048, .i32⟩
  | .hbm, ⟨17, _⟩ => ⟨S16x16x4096, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S16x16x4096x128, .f32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S16x16x4096x128, .f32⟩
  | .hbm, ⟨36, _⟩ => ⟨S16x16x2048x128, .f32⟩
  | .hbm, ⟨37, _⟩ => ⟨S16x16x2048x128, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S_S2048 : S_.BroadcastsInDim S2048 (![] : Fin 0 → Fin S2048.rank)
  bcast_S2048_S2048x1_0 : S2048.BroadcastsInDim S2048x1 (![0] : Fin 1 → Fin S2048x1.rank)
  bcast_S1x1x2048_S16x16x2048_0_1_2 : S1x1x2048.BroadcastsInDim S16x16x2048 (![0, 1, 2] : Fin 3 → Fin S16x16x2048.rank)
  slices_S16x16x4096x128_S16x16x2048x128_0_0_0_0 : S16x16x4096x128.Slices ![0, 0, 0, 0] S16x16x2048x128
  scatter_S16x16x4096_S2048x1_S16x16x2048_01_2_2_1_wf : ScatterDims.WF S16x16x4096 S2048x1 S16x16x2048 [0, 1] [2] [2] 1
  scatter_S16x16x4096x128_S2048x1_S16x16x2048x128_013_2_2_1_wf : ScatterDims.WF S16x16x4096x128 S2048x1 S16x16x2048x128 [0, 1, 3] [2] [2] 1

variable [Facts₀]

def scatter_S16x16x4096_S2048x1_S16x16x2048_01_2_2_1 : ScatterDims S16x16x4096 S2048x1 S16x16x2048 where
  updateWindowDims := [0, 1]
  insertedWindowDims := [2]
  scatterDimsToOperandDims := [2]
  indexVectorDim := 1
  wf := scatter_S16x16x4096_S2048x1_S16x16x2048_01_2_2_1_wf
def scatter_S16x16x4096x128_S2048x1_S16x16x2048x128_013_2_2_1 : ScatterDims S16x16x4096x128 S2048x1 S16x16x2048x128 where
  updateWindowDims := [0, 1, 3]
  insertedWindowDims := [2]
  scatterDimsToOperandDims := [2]
  indexVectorDim := 1
  wf := scatter_S16x16x4096x128_S2048x1_S16x16x2048x128_013_2_2_1_wf

class Facts : Prop extends Facts₀ where

variable [Facts]
-- ==== Proof.LibScatterSet.lean ====
/-
  A scatter that overwrites, read at an element that exactly one update reaches.

  `Host.scatter d f x idx upd` is the left fold, over the update indices in row-major order, of
  the step that replaces the accumulator's element at the update's result index (when it has one)
  by `f` of that element and the update's. With `f = fun _ b => b` a step at result index `i`
  leaves `upd j` at `i`, whatever was there. So if update index `j0` lands at `i0` and every
  update index that lands at `i0` is `j0`, the result holds `upd j0` at `i0`: after the step of
  `j0` the element at `i0` is `upd j0`, and every later step either leaves `i0` alone or (being
  the step of `j0` again, which does not happen in a list without repeats, but would be harmless)
  writes `upd j0` again.

  The list lemma is stated for any list, any partial map `g` from the list's elements to result
  places and any values `v`; it is proved by induction on the list with the accumulator
  generalized, under the invariant "`k0` is still to come, or the accumulator already holds
  `v k0` at `i0`". The scatter is its instance at the list of all update positions, in which every
  position occurs; the row-major numbering is a bijection, so update index `j0` is the position
  `rowMajor j0`.
-/
import Idealize.ShloMosaic.PureOps.ShapeOps

namespace Idealize.ShloMosaic

/-- The fold of the overwriting step over a list `l`, read at a place `i0` that `k0` reaches and
    nothing but `k0` reaches: if `k0` is in the list, or the starting accumulator already holds
    `v k0` at `i0`, the result holds `v k0` at `i0`. -/
theorem foldl_overwrite_apply {ι κ α : Type} [DecidableEq ι] (g : κ → Option ι) (v : κ → α)
    (i0 : ι) (k0 : κ) (hk0 : g k0 = some i0) (huniq : ∀ k, g k = some i0 → k = k0) :
    ∀ (l : List κ) (r : ι → α), (k0 ∈ l ∨ r i0 = v k0) →
      (l.foldl (fun r k =>
          match g k with
          | some i => fun i' => if i' = i then v k else r i'
          | none => r) r) i0 = v k0 := by
  intro l
  induction l with
  | nil =>
    intro r h
    rcases h with h | h
    · exact absurd h (List.not_mem_nil)
    · exact h
  | cons k l ih =>
    intro r h
    rw [List.foldl_cons]
    apply ih
    -- the invariant after the step of `k`
    by_cases hk : k = k0
    · -- the step of `k0` itself writes `v k0` at `i0`
      right
      subst hk
      rw [hk0]
      exact if_pos rfl
    · rcases h with h | h
      · -- `k0` is still to come
        left
        rcases List.mem_cons.1 h with h | h
        · exact absurd h.symm hk
        · exact h
      · -- the accumulator already holds `v k0` at `i0`, and the step of `k ≠ k0` does not touch `i0`
        right
        cases hg : g k with
        | none => exact h
        | some i =>
          have hi : i0 ≠ i := fun e => hk (huniq k (by rw [hg, e]))
          show (if i0 = i then v k else r i0) = v k0
          rw [if_neg hi]
          exact h

/-- `Host.scatter` with the overwriting body `fun _ b => b`, read at an operand index `i0` that
    update index `j0` lands at and no other update index lands at: the update's element at `j0`. -/
theorem Host.scatter_overwrite_apply {s si u : Shape} {α : Type} {w : Nat} (d : ScatterDims s si u)
    (x : s.Idx → α) (idx : IVec si w) (upd : u.Idx → α) (i0 : s.Idx) (j0 : u.Idx)
    (h0 : d.resultIdx? j0 idx = some i0) (huniq : ∀ j, d.resultIdx? j idx = some i0 → j = j0) :
    Host.scatter d (fun _ b => b) x idx upd i0 = upd j0 := by
  have key := foldl_overwrite_apply (fun n : Fin u.numel => d.resultIdx? (u.rowMajor.symm n) idx)
    (fun n => upd (u.rowMajor.symm n)) i0 (u.rowMajor j0)
    (by show d.resultIdx? (u.rowMajor.symm (u.rowMajor j0)) idx = some i0
        rw [Equiv.symm_apply_apply]; exact h0)
    (fun n hn => by
      have := huniq _ hn
      rw [← this, Equiv.apply_symm_apply])
    (List.finRange u.numel) x (Or.inl (List.mem_finRange _))
  rw [Equiv.symm_apply_apply] at key
  unfold Host.scatter
  -- the step of `Host.scatter` at `fun _ b => b` is the overwriting step, by cases on the result index
  refine Eq.trans (congrArg (fun st => List.foldl st x (List.finRange u.numel) i0)
    (funext fun r => funext fun n => ?_)) key
  cases d.resultIdx? (u.rowMajor.symm n) idx <;> rfl

/-- An update index lands at operand index `i` when, on every axis, its window's start plus its
    window coordinate is `i`'s coordinate: the sum is then inside the operand on every axis, and
    the index `resultIdx?` builds from the sums is `i`. -/
theorem ScatterDims.resultIdx?_eq_some {s si u : Shape} {w : Nat} (d : ScatterDims s si u) (j : u.Idx)
    (idx : IVec si w) (i : s.Idx) (h : ∀ a, d.start j idx a + d.window j a = ((i a).val : Int)) :
    d.resultIdx? j idx = some i := by
  unfold ScatterDims.resultIdx?
  rw [dif_pos (fun a => by
    rw [h a]
    exact ⟨Int.natCast_nonneg _, Int.ofNat_lt.2 (i a).isLt⟩)]
  refine congrArg some (funext fun a => Fin.ext ?_)
  show (d.start j idx a + d.window j a).toNat = (i a).val
  rw [h a, Int.toNat_natCast]

/-- The same when every update index `j` lands at `φ j` for a one-to-one `φ`: the scatter with the
    overwriting body holds the update's element at `j0` at the operand index `φ j0`. -/
theorem Host.scatter_overwrite_apply_of_injective {s si u : Shape} {α : Type} {w : Nat} (d : ScatterDims s si u)
    (x : s.Idx → α) (idx : IVec si w) (upd : u.Idx → α) (φ : u.Idx → s.Idx) (hφ : Function.Injective φ)
    (hland : ∀ j, d.resultIdx? j idx = some (φ j)) (j0 : u.Idx) :
    Host.scatter d (fun _ b => b) x idx upd (φ j0) = upd j0 :=
  Host.scatter_overwrite_apply d x idx upd (φ j0) j0 (hland j0) fun j hj =>
    hφ (Option.some.inj ((hland j).symm.trans hj))

end Idealize.ShloMosaic
-- ==== Proof.RefValue.lean ====
/-
  The reference's two results are its first two float arguments.

  The reference overwrites rows of a [16,16,4096,128] array `x3` by the rows of a [16,16,2048,128]
  array `x1`, row `r` of `x1` going to the row whose number is the `r`-th start word, and then
  keeps rows [0, 2048). The start words are `select (iota r <s 0) (iota r + 4096) (iota r)`; since
  `r < 2048` the word of `r` is not negative as a signed number, so the start word of row `r` is the
  word of `r`, which read signed is `r`. Hence update index `(a, b, r, c)` lands at operand index
  `(a, b, r, c)`: on the scattered axis the start is `r` and the window coordinate `0`, on the three
  window axes the start is `0` and the window coordinate the update's. This map of update indices to
  operand indices is one-to-one, so (the scatter's body returning the update) the scatter holds
  `x1 (a, b, r, c)` at `(a, b, r, c)` for every `r < 2048`, and the slice of rows [0, 2048) is `x1`.
-/
import proofs.«209732_g49563922596461_cont_8to1_c_1115_2_alg».proof.Proof.Gen.ReferenceIdeal.Read
import proofs.«209732_g49563922596461_cont_8to1_c_1115_2_alg».proof.Proof.LibScatterSet

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The start words -/

/-- The 32-bit word of a number below 2^31, read signed, is the number. -/
theorem toInt_ofNat_of_lt (r : Nat) (h : r < 2147483648) : (BitVec.ofNat 32 r).toInt = (r : Int) := by
  rw [BitVec.toInt_eq_toNat_cond, BitVec.toNat_ofNat]
  have hr : r % 2 ^ 32 = r := Nat.mod_eq_of_lt (by omega)
  rw [hr, if_pos (by omega)]

/-- The word of a number below 2^31 is not below zero in the signed order. -/
theorem cmpi_slt_ofNat_zero (r : Nat) (h : r < 2147483648) :
    IntOp.cmpi .slt (BitVec.ofNat 32 r) 0#32 = 0#1 := by
  have h1 : (BitVec.ofNat 32 r).slt 0#32 = false := by
    unfold BitVec.slt
    rw [toInt_ofNat_of_lt r h]
    simp
  show BitVec.ofBool ((BitVec.ofNat 32 r).slt 0#32) = 0#1
  rw [h1]; rfl

/-- The start word of row `r` (first scatter's column, `%15`) is the word of `r`. -/
theorem start_word_v15 (k : S2048x1.Idx) : Read.val_main_v15 (F := F) k = BitVec.ofNat 32 (k 0).val := by
  have hk : (k 0).val < 2048 := (k 0).isLt
  rw [Read.val_main_v15_apply, Read.val_main_v14_apply, Read.val_main_v11_apply, Read.val_main_v0_apply,
    Read.val_main_v10_apply, Read.val_main_c_1_apply]
  show Scalar.select (IntOp.cmpi .slt (BitVec.ofNat 32 (k 0).val) 0#32) _ _ = _
  rw [cmpi_slt_ofNat_zero _ (by omega)]
  exact if_neg (by decide)

/-- The start word of row `r` (second scatter's column, `%22`) is the word of `r`. -/
theorem start_word_v22 (k : S2048x1.Idx) : Read.val_main_v22 (F := F) k = BitVec.ofNat 32 (k 0).val := by
  have hk : (k 0).val < 2048 := (k 0).isLt
  rw [Read.val_main_v22_apply, Read.val_main_v21_apply, Read.val_main_v18_apply, Read.val_main_v0_apply,
    Read.val_main_v17_apply, Read.val_main_c_3_apply]
  show Scalar.select (IntOp.cmpi .slt (BitVec.ofNat 32 (k 0).val) 0#32) _ _ = _
  rw [cmpi_slt_ofNat_zero _ (by omega)]
  exact if_neg (by decide)

/-! ## Where an update lands -/

/-- With start words that are the row numbers, update index `j` of the scatter lands at the operand
    index with the same four coordinates: the start is the row number on the scattered axis `2` and
    `0` on the others; the window coordinate is `0` on axis `2` and the update's on the others. -/
theorem lands (idx : IVec S2048x1 32) (hidx : ∀ k : S2048x1.Idx, idx k = BitVec.ofNat 32 (k 0).val)
    (j : S16x16x2048x128.Idx) :
    scatter_S16x16x4096x128_S2048x1_S16x16x2048x128_013_2_2_1.resultIdx? j idx = some (Read.idx_main_v24 j) := by
  have hj2 : (j 2).val < 2048 := (j 2).isLt
  apply ScatterDims.resultIdx?_eq_some
  intro a
  match a with
  | ⟨0, _⟩ =>
    have hs : scatter_S16x16x4096x128_S2048x1_S16x16x2048x128_013_2_2_1.start j idx ⟨0, by decide⟩ = 0 := by
      unfold ScatterDims.start; exact dif_neg (by decide)
    have hw : scatter_S16x16x4096x128_S2048x1_S16x16x2048x128_013_2_2_1.window j ⟨0, by decide⟩ = (j 0).val := by
      unfold ScatterDims.window; rw [dif_pos (by decide)]; rfl
    rw [hs, hw, Int.zero_add]
  | ⟨1, _⟩ =>
    have hs : scatter_S16x16x4096x128_S2048x1_S16x16x2048x128_013_2_2_1.start j idx ⟨1, by decide⟩ = 0 := by
      unfold ScatterDims.start; exact dif_neg (by decide)
    have hw : scatter_S16x16x4096x128_S2048x1_S16x16x2048x128_013_2_2_1.window j ⟨1, by decide⟩ = (j 1).val := by
      unfold ScatterDims.window; rw [dif_pos (by decide)]; rfl
    rw [hs, hw, Int.zero_add]
  | ⟨2, _⟩ =>
    have hs : scatter_S16x16x4096x128_S2048x1_S16x16x2048x128_013_2_2_1.start j idx ⟨2, by decide⟩ = ((j 2).val : Int) := by
      unfold ScatterDims.start
      rw [dif_pos (by decide), hidx]
      -- the start word is read at row `j 2` of the column
      show (BitVec.ofNat 32 (j 2).val).toInt = _
      exact toInt_ofNat_of_lt _ (by omega)
    have hw : scatter_S16x16x4096x128_S2048x1_S16x16x2048x128_013_2_2_1.window j ⟨2, by decide⟩ = 0 := by
      unfold ScatterDims.window; exact dif_neg (by decide)
    rw [hs, hw, Nat.cast_zero, Int.add_zero]
  | ⟨3, _⟩ =>
    have hs : scatter_S16x16x4096x128_S2048x1_S16x16x2048x128_013_2_2_1.start j idx ⟨3, by decide⟩ = 0 := by
      unfold ScatterDims.start; exact dif_neg (by decide)
    have hw : scatter_S16x16x4096x128_S2048x1_S16x16x2048x128_013_2_2_1.window j ⟨3, by decide⟩ = (j 3).val := by
      unfold ScatterDims.window; rw [dif_pos (by decide)]; rfl
    rw [hs, hw, Int.zero_add]

/-- Update indices with the same landing place are equal. -/
theorem idx_injective : Function.Injective Read.idx_main_v24 := by
  intro i j h
  funext a
  match a with
  | ⟨0, _⟩ => have e := congrArg Fin.val (congrFun h ⟨0, by decide⟩); exact Fin.ext e
  | ⟨1, _⟩ => have e := congrArg Fin.val (congrFun h ⟨1, by decide⟩); exact Fin.ext e
  | ⟨2, _⟩ => have e := congrArg Fin.val (congrFun h ⟨2, by decide⟩); exact Fin.ext e
  | ⟨3, _⟩ => have e := congrArg Fin.val (congrFun h ⟨3, by decide⟩); exact Fin.ext e

/-! ## The two results -/

/-- The reference's first result (`%24`) is its argument `x1`. -/
theorem val_v24 (x1 : (⟨S16x16x2048x128, .f32⟩ : BufTy).Contents (Elt F))
    (x3 : (⟨S16x16x4096x128, .f32⟩ : BufTy).Contents (Elt F)) :
    Read.val_main_v24 (F := F) x1 x3 = x1 := by
  funext i
  rw [Read.val_main_v24_apply]
  unfold Read.val_main_v16
  exact Host.scatter_overwrite_apply_of_injective _ x3 (Read.val_main_v15 (F := F)) x1 Read.idx_main_v24
    idx_injective (lands _ start_word_v15) i

/-- The reference's second result (`%25`) is its argument `x2`. -/
theorem val_v25 (x2 : (⟨S16x16x2048x128, .f32⟩ : BufTy).Contents (Elt F))
    (x4 : (⟨S16x16x4096x128, .f32⟩ : BufTy).Contents (Elt F)) :
    Read.val_main_v25 (F := F) x2 x4 = x2 := by
  funext i
  rw [Read.val_main_v25_apply]
  unfold Read.val_main_v23
  exact Host.scatter_overwrite_apply_of_injective _ x4 (Read.val_main_v22 (F := F)) x2 Read.idx_main_v24
    idx_injective (lands _ start_word_v22) i

end Cert.ReferenceIdeal.RefValue

end
-- ==== Proof.IdealSetup.lean ====
/-
  The copy kernel on the idealized program: what the launch hands each vector subcore.

  The flattened arrays of 67,108,864 words are cut into 32 consecutive pieces of 2,097,152 words; vector
  subcore s of SparseCore c copies piece 2·s + c of each source array onto the same piece of its
  destination array. This module fixes the pieces, shows that they are pairwise disjoint and cover the
  array, and states what travels with the launch's handshakes: to a subcore its piece of the four arrays,
  back from it the same pieces with the destinations holding the sources' contents.
-/
import proofs.«209732_g49563922596461_cont_8to1_c_1115_2_alg».proof.Defs
import Idealize.ShloMosaic.Lib.SparseCore.Launch
import Idealize.ShloMosaic.Lib.StableHlo.Run
import Idealize.ShloMosaic.Lib.Pipeline.Kit
import Idealize.ShloMosaic.Lib.Tactic
import proofs.«209732_g49563922596461_cont_8to1_c_1115_2_alg».proof.Proof.Gen.KernelIdeal
import proofs.«209732_g49563922596461_cont_8to1_c_1115_2_alg».proof.Proof.Gen.KernelIdeal.Skeleton

noncomputable section

namespace Cert.Proof.IdealFill

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = grid0.bound 0 := rfl
theorem nSub_zero : (K (F := F)).nSub 0 = grid0.bound 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The four flat arrays and their pieces -/

abbrev kLoc (d : Dev nD) : Loc nD τ sig := (SparseCore.T d).loc main_v0
abbrev vLoc (d : Dev nD) : Loc nD τ sig := (SparseCore.T d).loc main_v1
abbrev okLoc (d : Dev nD) : Loc nD τ sig := (SparseCore.T d).loc main_v2_0
abbrev ovLoc (d : Dev nD) : Loc nD τ sig := (SparseCore.T d).loc main_v2_1

/-- The contents of one flat array. -/
abbrev Flat (F : FTy → Type) : Type := S67108864.Idx → Elt F .f32

abbrev aK : Memref sig .scVector .hbm S67108864 .f32 := Memref.whole main_v0_scv
abbrev aV : Memref sig .scVector .hbm S67108864 .f32 := Memref.whole main_v1_scv
abbrev oK : Memref sig .scVector .hbm S67108864 .f32 := Memref.whole main_v2_0_scv
abbrev oV : Memref sig .scVector .hbm S67108864 .f32 := Memref.whole main_v2_1_scv

/-- The rectangle a subcore at grid coordinates `L` slices out of each array: 2,097,152 words from its offset. -/
abbrev rc (L : grid0.Coords) : Rect S67108864 := Rect.unit (s := S67108864) (k0_off1 L) S2097152.size (k0_off1_inb L)
/-- Its elements. -/
abbrev pc (L : grid0.Coords) : Finset S67108864.Idx := (rc L).set

abbrev aKs (L : grid0.Coords) : Memref sig .scVector .hbm S2097152 .f32 := (aK).slice (rc L) (fun _ => rfl)
abbrev aVs (L : grid0.Coords) : Memref sig .scVector .hbm S2097152 .f32 := (aV).slice (rc L) (fun _ => rfl)
abbrev oKs (L : grid0.Coords) : Memref sig .scVector .hbm S2097152 .f32 := (oK).slice (rc L) (fun _ => rfl)
abbrev oVs (L : grid0.Coords) : Memref sig .scVector .hbm S2097152 .f32 := (oV).slice (rc L) (fun _ => rfl)

def coordsV (c : Fin (grid0.bound 0)) (s : Fin (grid0.bound 1)) : grid0.Coords :=
  fun | 0 => c | 1 => s | ⟨_ + 2, h⟩ => absurd h (Nat.not_lt.2 (Nat.le_add_left _ _))

/-- An element lies in the piece at `L` exactly when its position is in the piece's range of 2,097,152 positions. -/
theorem mem_pc (L : grid0.Coords) (x : S67108864.Idx) :
    x ∈ pc L ↔ 4194304 * (L 1).val + 2097152 * (L 0).val ≤ (x 0).val ∧ (x 0).val < 4194304 * (L 1).val + 2097152 * (L 0).val + 2097152 := by
  unfold pc rc
  rw [Rect.mem_set_unit]
  constructor
  · intro h
    have h0 := h 0
    rw [k0_off1_eq] at h0
    exact h0
  · intro h a
    match a with
    | ⟨0, _⟩ => rw [k0_off1_eq]; exact h

/-- Pieces at different coordinates have no element in common. -/
theorem pc_disjoint (c c' : Fin (grid0.bound 0)) (s s' : Fin (grid0.bound 1)) (h : c ≠ c' ∨ s ≠ s') :
    Disjoint (pc (coordsV c s)) (pc (coordsV c' s')) := by
  rw [Finset.disjoint_left]
  intro x hx hx'
  rw [mem_pc] at hx hx'
  have hc : c.val < 2 := c.isLt
  have hc' : c'.val < 2 := c'.isLt
  have e1 : (coordsV c s 0).val = c.val := rfl
  have e2 : (coordsV c s 1).val = s.val := rfl
  have e3 : (coordsV c' s' 0).val = c'.val := rfl
  have e4 : (coordsV c' s' 1).val = s'.val := rfl
  rw [e1, e2] at hx
  rw [e3, e4] at hx'
  rcases h with h | h
  · exact h (Fin.ext (by omega))
  · exact h (Fin.ext (by omega))

/-- Every element lies in some piece. -/
theorem pc_cover (x : S67108864.Idx) : ∃ (c : Fin (grid0.bound 0)) (s : Fin (grid0.bound 1)), x ∈ pc (coordsV c s) := by
  have hx : (x 0).val < 67108864 := (x 0).isLt
  refine ⟨⟨((x 0).val / 2097152) % 2, Nat.mod_lt _ (by decide)⟩, ⟨(x 0).val / 4194304, ?_⟩, ?_⟩
  · show (x 0).val / 4194304 < 16
    omega
  · rw [mem_pc]
    show 4194304 * ((x 0).val / 4194304) + 2097152 * (((x 0).val / 2097152) % 2) ≤ (x 0).val
      ∧ (x 0).val < 4194304 * ((x 0).val / 4194304) + 2097152 * (((x 0).val / 2097152) % 2) + 2097152
    omega

/-! ## What the handshakes carry -/

variable [FloatOps F]

/-- A subcore's share before its task: its piece of the two source arrays at `a`, `b`, and of the two destination arrays
    at whatever they hold (`a'`, `b'`). -/
abbrev goRes (d : Dev nD) (L : grid0.Coords) (a b a' b' : Flat F) : sProp 𝕄 :=
  iprop((kLoc d ↦[pc L]{fullShare} a) ∗ (vLoc d ↦[pc L]{fullShare} b) ∗ (okLoc d ↦[pc L]{fullShare} a') ∗ (ovLoc d ↦[pc L]{fullShare} b'))

/-- The call's payloads, parametrised by the sources' contents `a d`, `b d` and the destinations' prior contents: a
    SparseCore is handed its sixteen subcores' shares and hands back the same, the destinations at the sources' contents. -/
def P (a b a' b' : Dev nD → Flat F) : (K (F := F)).Pay (nD := nD) (Val := Elt F) (Name := ℕ) (U := UU) where
  st := fun q d c => match q with
    | 0 => bigSep Finset.univ fun i : Fin (grid0.bound 1) => goRes d (coordsV (Fin.cast nCore_zero c) i) (a d) (b d) (a' d) (b' d)
  dn := fun q d c => match q with
    | 0 => bigSep Finset.univ fun i : Fin (grid0.bound 1) => goRes d (coordsV (Fin.cast nCore_zero c) i) (a d) (b d) (a d) (b d)
  go := fun q d c i => match q with
    | 0 => goRes d (coordsV (Fin.cast nCore_zero c) (Fin.cast nSub_zero i)) (a d) (b d) (a' d) (b' d)
  td := fun q d c i => match q with
    | 0 => goRes d (coordsV (Fin.cast nCore_zero c) (Fin.cast nSub_zero i)) (a d) (b d) (a d) (b d)
  x := fun _ _ => iprop(emp)

instance P_storable (a b a' b' : Dev nD → Flat F) : (P (F := F) a b a' b').IsStorable where
  st q d c := match q with | 0 => by unfold P; infer_instance
  dn q d c := match q with | 0 => by unfold P; infer_instance
  go q d c i := match q with | 0 => by unfold P; infer_instance
  td q d c i := match q with | 0 => by unfold P; infer_instance

end Cert.Proof.IdealFill

end
-- ==== Proof.LibWholeView.lean ====
/-
  Two general facts about contents read and written through a view of a buffer.

  `read_writes_whole_cons`: after a list of stores through rectangles of a view, the last of which went through
  the WHOLE of the view, the view reads back exactly that last payload — whatever the earlier stores and the
  prior contents were.  (A copy that fills a staging slot, or a chunk of an array, is such a store.)

  `eq_on_set_of_read_eq`: two contents of a buffer that read alike through a view agree on every element of
  the buffer that the view addresses — so an assertion that holds the buffer on exactly the view's elements
  cannot tell them apart (with `pointsTo_congr`: held on `v.set`, the buffer at `f` is the buffer at `f'`).
-/
import Idealize.ShloMosaic.Lib.Writes

namespace Cert.Proof.LibWholeView

open Idealize.ShloMosaic

variable {sig : RefSig} {κ : Kind} {sp : Space} {s : Shape} {e : EltTy} {Val : EltTy → Type}

/-- A store through the whole of a view, made last, reads back as its payload whatever was stored before. -/
theorem read_writes_whole_cons (v : View sig κ sp s e) (f : v.ty.Contents Val) (x : s.Idx → Val e) (Ls : List (View.Piece Val s e)) :
    v.read Val (v.writes Val f (⟨Rect.whole s, x⟩ :: Ls)) = x := by
  funext y
  have h := View.read_writes_cons_emb v f (Rect.whole s) x Ls y
  rwa [Rect.emb_whole_apply] at h

/-- Contents that read alike through a view agree on the view's own elements. -/
theorem eq_on_set_of_read_eq (v : View sig κ sp s e) (f f' : v.ty.Contents Val) (h : v.read Val f = v.read Val f') :
    ∀ i ∈ v.set, f i = f' i := by
  intro i hi
  obtain ⟨y, -, rfl⟩ := Finset.mem_map.mp hi
  have hy := congrFun h y
  rw [View.read_apply, View.read_apply] at hy
  have hc : ∀ {A B : Type} (hAB : A = B) (a b : A), _root_.cast hAB a = _root_.cast hAB b → a = b := by
    intro A B hAB; subst hAB; intro a b hab; exact hab
  exact hc _ _ _ hy

end Cert.Proof.LibWholeView
-- ==== Proof.IdealTile.lean ====
/-
  One vector subcore's task: two copies, each of the subcore's piece of a source array onto the same piece of
  the destination array, each on its own semaphore, then the two waits. The destination pieces end at the
  sources' contents.
-/
import proofs.«209732_g49563922596461_cont_8to1_c_1115_2_alg».proof.Defs
import Idealize.ShloMosaic.Lib.SparseCore.Launch
import Idealize.ShloMosaic.Lib.StableHlo.Run
import Idealize.ShloMosaic.Lib.Pipeline.Kit
import Idealize.ShloMosaic.Lib.Tactic
import proofs.«209732_g49563922596461_cont_8to1_c_1115_2_alg».proof.Proof.Gen.KernelIdeal
import proofs.«209732_g49563922596461_cont_8to1_c_1115_2_alg».proof.Proof.Gen.KernelIdeal.Skeleton
import proofs.«209732_g49563922596461_cont_8to1_c_1115_2_alg».proof.Proof.IdealSetup
import proofs.«209732_g49563922596461_cont_8to1_c_1115_2_alg».proof.Proof.LibWholeView

noncomputable section

namespace Cert.Proof.IdealFill

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords)

abbrev cV (L : grid0.Coords) : Fin τ.nSC := (L 0).castLE hcore0
abbrev jV (L : grid0.Coords) : Fin τ.nSub := (L 1).castLE hsub0

abbrev semK (d : Dev nD) (L : grid0.Coords) : GSem nD τ sig := (V d (cV L) (jV L), .dma cc0_scratch0.sem)
abbrev semV (d : Dev nD) (L : grid0.Coords) : GSem nD τ sig := (V d (cV L) (jV L), .dma cc0_scratch1.sem)

/-- The subcore's two copy semaphores are among its own; the rest stay as they are. -/
theorem ownSems0_V :
    (ownSems0 (V d (cV L) (jV L)) : sProp 𝕄)
      = iprop(semVal (semK d L) 0 ∗ semVal (semV d L) 0
          ∗ bigSep (((ownCells (V d (cV L) (jV L))).erase (semK d L)).erase (semV d L)) fun g => semVal g 0) := by
  unfold SparseCore.Cfg.ownSems0
  rw [SparseCore.bigSep_erase' ((mem_ownCells (g := semK d L)).mpr ⟨rfl, by
      show (SemLoc.dma cc0_scratch0.sem : SemLoc sig).isScoped .scVector = true; decide⟩),
    SparseCore.bigSep_erase' (Finset.mem_erase.mpr ⟨by simp [semK, semV]; decide, (mem_ownCells (g := semV d L)).mpr ⟨rfl, by
      show (SemLoc.dma cc0_scratch1.sem : SemLoc sig).isScoped .scVector = true; decide⟩⟩)]

/-- A piece held through the slice the program takes is the piece of the device's array. -/
theorem pts_aKs (f : Flat F) :
    ((aKs L).view.loc (V d (cV L) (jV L)) ↦[(aKs L).view.set]{fullShare} f : sProp 𝕄) = kLoc d ↦[pc L]{fullShare} f := by
  rw [show (aKs L).view.set = pc L from View.set_slice_whole _ _]
theorem pts_aVs (f : Flat F) :
    ((aVs L).view.loc (V d (cV L) (jV L)) ↦[(aVs L).view.set]{fullShare} f : sProp 𝕄) = vLoc d ↦[pc L]{fullShare} f := by
  rw [show (aVs L).view.set = pc L from View.set_slice_whole _ _]
theorem pts_oKs (f : Flat F) :
    ((oKs L).view.loc (V d (cV L) (jV L)) ↦[(oKs L).view.set]{fullShare} f : sProp 𝕄) = okLoc d ↦[pc L]{fullShare} f := by
  rw [show (oKs L).view.set = pc L from View.set_slice_whole _ _]
theorem pts_oVs (f : Flat F) :
    ((oVs L).view.loc (V d (cV L) (jV L)) ↦[(oVs L).view.set]{fullShare} f : sProp 𝕄) = ovLoc d ↦[pc L]{fullShare} f := by
  rw [show (oVs L).view.set = pc L from View.set_slice_whole _ _]

/-- The destination piece, written whole with what the source piece reads, holds the source's contents on the piece:
    both slices address the same positions of their arrays. -/
theorem pts_landK (a a' : Flat F) (X : S2097152.Idx → Elt F .f32) (hX : X = (aKs L).view.read (Elt F) a) :
    ((oKs L).view.loc (V d (cV L) (jV L)) ↦[(oKs L).view.set]{fullShare}
        (oKs L).view.writes (Elt F) a' [⟨Rect.whole S2097152, X⟩] : sProp 𝕄) = okLoc d ↦[pc L]{fullShare} a := by
  rw [pointsTo_congr (g := a) (LibWholeView.eq_on_set_of_read_eq (oKs L).view _ a (by
    rw [LibWholeView.read_writes_whole_cons, hX]; rfl))]
  exact pts_oKs d L a
theorem pts_landV (b b' : Flat F) (X : S2097152.Idx → Elt F .f32) (hX : X = (aVs L).view.read (Elt F) b) :
    ((oVs L).view.loc (V d (cV L) (jV L)) ↦[(oVs L).view.set]{fullShare}
        (oVs L).view.writes (Elt F) b' [⟨Rect.whole S2097152, X⟩] : sProp 𝕄) = ovLoc d ↦[pc L]{fullShare} b := by
  rw [pointsTo_congr (g := b) (LibWholeView.eq_on_set_of_read_eq (oVs L).view _ b (by
    rw [LibWholeView.read_writes_whole_cons, hX]; rfl))]
  exact pts_oVs d L b

variable [FloatOps F]

theorem tile_body (a b a' b' : Flat F) (O : CellTallies nD τ sig (HIx 1)) (W : Waits sig (HIx 1)) (hO : ∀ g, O g none = 0) :
    iprop(levAts (K (F := F)).L (K (F := F)).lev ∗ emp ∗ goRes d L a b a' b'
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_fill L aK (Memref.isWhole_whole _) aV (Memref.isWhole_whole _) oK (Memref.isWhole_whole _) oV (Memref.isWhole_whole _) cc0_scratch0 cc0_scratch1)
          fun _ => iprop(goRes d L a b a b ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_fill_eq_skeleton]; unfold cc0_fill_skel
  rw [SparseCore.Cfg.scopedSems0_V (Val := Elt F) d (cV L) (jV L), ownSems0_V]
  iintro ⟨#Hlv, -, ⟨Hk, Hv, Hok, Hov⟩, Hsb, ⟨HsemK, HsemV, Hsems⟩, HO⟩
  ihave Hmw := ((K (F := F)).mayWaits_none (thr := V d (cV L) (jV L)) hO) $$ Hlv
  ihave Hk' := (Entails.of_eq (pts_aKs (F := F) d L _).symm) $$ Hk
  ihave Hv' := (Entails.of_eq (pts_aVs (F := F) d L _).symm) $$ Hv
  ihave Hok' := (Entails.of_eq (pts_oKs (F := F) d L _).symm) $$ Hok
  ihave Hov' := (Entails.of_eq (pts_oVs (F := F) d L _).symm) $$ Hov
  sl_exec
  have eK : tile_body.sl.dma0 L a = (aKs L).view.read (Elt F) a := by
    unfold tile_body.sl.dma0; rw [ReadAs.apply_same]
  have eV : tile_body.sl.dma0_1 L b = (aVs L).view.read (Elt F) b := by
    unfold tile_body.sl.dma0_1; rw [ReadAs.apply_same]
  sl_step
  isplitl [Hk' Hv' Hok' Hov']
  · isplitl [Hk']; · iapply (Entails.of_eq (pts_aKs (F := F) d L a)); iexact Hk'
    isplitl [Hv']; · iapply (Entails.of_eq (pts_aVs (F := F) d L b)); iexact Hv'
    isplitl [Hok']; · iapply (Entails.of_eq (pts_landK (F := F) d L a a' _ eK)); iexact Hok'
    iapply (Entails.of_eq (pts_landV (F := F) d L b b' _ eV)); iexact Hov'
  isplitl [Hsb]; · iexact Hsb
  isplitl [HsemK HsemV Hsems]
  · isplitl [HsemK]; · iexact HsemK
    isplitl [HsemV]; · iexact HsemV
    iexact Hsems
  iexists (insert (SemLoc.dma cc0_scratch1.sem, (default : HIx 1)) (insert (SemLoc.dma cc0_scratch0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Tile

/-! ## The launch theorem's obligations for the vector subcores -/

variable [FloatOps F]

theorem defs₀_vector (c : Fin τ.nSC) (s : Fin τ.nSub) :
    defs₀ (F := F) (.scVector c s) 0 ()
      = SparseCore.onTile hcore0 hsub0 (fun c s => cc0_fill (coordsV c s)
          aK (Memref.isWhole_whole _) aV (Memref.isWhole_whole _) oK (Memref.isWhole_whole _) oV (Memref.isWhole_whole _)
          cc0_scratch0 cc0_scratch1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore of the grid runs the task from its share to the share with the destinations filled. -/
theorem tileObl (a b a' b' : Dev nD → Flat F) : (K (F := F)).TileObl (D (F := F)) 𝒱 (P a b a' b') v₀ 0 := by
  intro d c i O W hO _ _
  simp only [show (P a b a' b').ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (a d) (b d) (a' d) (b' d) O W hO).trans (wp_mono frame _ _ fun _ => obl_post)

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands are its sixteen subcores' shares, and its results theirs. -/
theorem vecSplit (a b a' b' : Dev nD → Flat F) : (K (F := F)).VecSplit' (P a b a' b') 0 := by
  intro d c
  show (bigSep Finset.univ fun i : Fin (grid0.bound 1) => goRes d (coordsV (Fin.cast nCore_zero c) i) (a d) (b d) (a' d) (b' d))
    ⊢ |={Set.univ}=> iprop(
      (bigSep Finset.univ fun i : Fin ((K (F := F)).nSub 0) =>
        goRes d (coordsV (Fin.cast nCore_zero c) (Fin.cast nSub_zero i)) (a d) (b d) (a' d) (b' d))
      ∗ ((bigSep Finset.univ fun i : Fin ((K (F := F)).nSub 0) =>
          goRes d (coordsV (Fin.cast nCore_zero c) (Fin.cast nSub_zero i)) (a d) (b d) (a d) (b d))
          -∗ (bigSep Finset.univ fun i : Fin (grid0.bound 1) => goRes d (coordsV (Fin.cast nCore_zero c) i) (a d) (b d) (a d) (b d))))
  rw [bigSep_tasks (F := F) (fun i => goRes d (coordsV (Fin.cast nCore_zero c) i) (a d) (b d) (a' d) (b' d)),
    bigSep_tasks (F := F) (fun i => goRes d (coordsV (Fin.cast nCore_zero c) i) (a d) (b d) (a d) (b d))]
  iintro H; imodintro
  isplitl [H]; · iexact H
  iintro H; iexact H

end Cert.Proof.IdealFill

end
-- ==== Proof.LibNestedSplit.lean ====
/-
  A buffer held whole is the nested family of its pieces.

  If finitely many element sets, indexed by two (or by three) finite index types, are pairwise disjoint and
  together contain every element of a buffer, then holding the buffer whole at contents `f` is holding every one
  of the sets at `f`, the family nested index by index.  The hypotheses speak of membership and disjointness
  only, so a user may state them over the buffer's literal index type.
-/
import Idealize.ShloMosaic.Rules.PointsTo

noncomputable section

namespace Cert.Proof.LibNestedSplit

open Idealize.ShloMosaic
open Idealize.SL
open Idealize.SL.RA Idealize.SL.Sem Idealize.SL.ProofMode
open Idealize.SL.BI (sProp bigSep bigSep_congr)
open scoped Idealize.SL.BI
open Idealize.SL.BI.BIBase Idealize.SL.BI.Laws
open PCS URA Auth

variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

variable {ℓ : Loc nD τ sig} {q : PosShare TreeShare} {f : Buf Val ℓ}

/-- Two index types. -/
theorem pointsTo_nested_two {T₁ T₂ : Type} [Fintype T₁] [Fintype T₂] [DecidableEq T₁] [DecidableEq T₂]
    (K : T₁ → T₂ → Finset (Idx ℓ))
    (hd : ∀ a b a' b', (a ≠ a' ∨ b ≠ b') → Disjoint (K a b) (K a' b'))
    (hc : ∀ x, ∃ a b, x ∈ K a b) :
    (ℓ ↦{q} f : sProp 𝕄) = bigSep Finset.univ fun a : T₁ => bigSep Finset.univ fun b : T₂ => ℓ ↦[K a b]{q} f := by
  classical
  have e1 : ∀ a, (ℓ ↦[(Finset.univ : Finset T₂).biUnion (K a)]{q} f : sProp 𝕄) = bigSep Finset.univ fun b : T₂ => ℓ ↦[K a b]{q} f :=
    fun a => pointsTo_biUnion Finset.univ (K a) fun b _ b' _ h => hd a b a b' (.inr h)
  have e2 : (ℓ ↦[(Finset.univ : Finset T₁).biUnion fun a => (Finset.univ : Finset T₂).biUnion (K a)]{q} f : sProp 𝕄)
      = bigSep Finset.univ fun a : T₁ => ℓ ↦[(Finset.univ : Finset T₂).biUnion (K a)]{q} f :=
    pointsTo_biUnion Finset.univ (fun a => (Finset.univ : Finset T₂).biUnion (K a)) fun a _ a' _ h =>
      Finset.disjoint_left.mpr fun x hx hx' => by
        obtain ⟨b, -, hb⟩ := Finset.mem_biUnion.mp hx
        obtain ⟨b', -, hb'⟩ := Finset.mem_biUnion.mp hx'
        exact Finset.disjoint_left.mp (hd a b a' b' (.inl h)) hb hb'
  have e3 : ((Finset.univ : Finset T₁).biUnion fun a => (Finset.univ : Finset T₂).biUnion (K a)) = Finset.univ :=
    Finset.eq_univ_of_forall fun x => by
      obtain ⟨a, b, h⟩ := hc x
      exact Finset.mem_biUnion.mpr ⟨a, Finset.mem_univ _, Finset.mem_biUnion.mpr ⟨b, Finset.mem_univ _, h⟩⟩
  rw [show (ℓ ↦{q} f : sProp 𝕄) = ℓ ↦[Finset.univ]{q} f from rfl, ← e3, e2]
  exact bigSep_congr fun a _ => e1 a

/-- Three index types. -/
theorem pointsTo_nested_three {T₁ T₂ T₃ : Type} [Fintype T₁] [Fintype T₂] [Fintype T₃] [DecidableEq T₁] [DecidableEq T₂] [DecidableEq T₃]
    (K : T₁ → T₂ → T₃ → Finset (Idx ℓ))
    (hd : ∀ a b c a' b' c', (a ≠ a' ∨ b ≠ b' ∨ c ≠ c') → Disjoint (K a b c) (K a' b' c'))
    (hc : ∀ x, ∃ a b c, x ∈ K a b c) :
    (ℓ ↦{q} f : sProp 𝕄) = bigSep Finset.univ fun a : T₁ => bigSep Finset.univ fun b : T₂ => bigSep Finset.univ fun c : T₃ => ℓ ↦[K a b c]{q} f := by
  classical
  have e0 := pointsTo_nested_two (ℓ := ℓ) (q := q) (f := f) (Ix := Ix) (Name := Name) (U := U) (Lvl := Lvl)
    (fun a b => (Finset.univ : Finset T₃).biUnion (K a b))
    (fun a b a' b' h => Finset.disjoint_left.mpr fun x hx hx' => by
      obtain ⟨c, -, hc1⟩ := Finset.mem_biUnion.mp hx
      obtain ⟨c', -, hc2⟩ := Finset.mem_biUnion.mp hx'
      exact Finset.disjoint_left.mp (hd a b c a' b' c' (h.elim .inl fun h' => .inr (.inl h'))) hc1 hc2)
    (fun x => by
      obtain ⟨a, b, c, h⟩ := hc x
      exact ⟨a, b, Finset.mem_biUnion.mpr ⟨c, Finset.mem_univ _, h⟩⟩)
  refine e0.trans (bigSep_congr fun a _ => bigSep_congr fun b _ => ?_)
  exact pointsTo_biUnion Finset.univ (K a b) fun c _ c' _ h => hd a b c a b c' (.inr (.inr h))

end Cert.Proof.LibNestedSplit

end
-- ==== Proof.IdealMain.lean ====
/-
  The copy program's run on the idealized program. On the TensorCore, @main flattens the two value arrays, hands the
  two SparseCores the flat sources and destinations cut into their 32 pieces, gets the pieces back with every
  destination piece at the source's contents — so the flat destinations hold the flat sources whole —, and
  un-flattens them: flattening and un-flattening are inverse re-indexings, so the two results are the two value
  arrays, and no argument array is ever written.
-/
import proofs.«209732_g49563922596461_cont_8to1_c_1115_2_alg».proof.Defs
import Idealize.ShloMosaic.Lib.SparseCore.Launch
import Idealize.ShloMosaic.Lib.StableHlo.Run
import Idealize.ShloMosaic.Lib.Pipeline.Kit
import Idealize.ShloMosaic.Lib.Tactic
import proofs.«209732_g49563922596461_cont_8to1_c_1115_2_alg».proof.Proof.Gen.KernelIdeal
import proofs.«209732_g49563922596461_cont_8to1_c_1115_2_alg».proof.Proof.Gen.KernelIdeal.Skeleton
import proofs.«209732_g49563922596461_cont_8to1_c_1115_2_alg».proof.Proof.IdealTile
import proofs.«209732_g49563922596461_cont_8to1_c_1115_2_alg».proof.Proof.LibNestedSplit
import Idealize.ShloMosaic.Lib.Pipeline.Value
import Idealize.ShloMosaic.Lib.Pipeline.Frame

noncomputable section

namespace Cert.Proof.IdealFill

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within)

variable {F : FTy → Type}

local notation "𝕄" => MT nD τ sig (HIx 1) (Elt F) ℕ UU ℕ

/-! ## The whole flat arrays and their pieces -/

theorem whole_k (d : Dev nD) (f : Flat F) :
    (kLoc d ↦{fullShare} f : sProp 𝕄)
      = bigSep Finset.univ fun c : Fin (grid0.bound 0) => bigSep Finset.univ fun i : Fin (grid0.bound 1) => kLoc d ↦[pc (coordsV c i)]{fullShare} f :=
  LibNestedSplit.pointsTo_nested_two (ℓ := kLoc d) (fun c i => pc (coordsV c i)) (fun c i c' i' h => pc_disjoint c c' i i' h) pc_cover
theorem whole_v (d : Dev nD) (f : Flat F) :
    (vLoc d ↦{fullShare} f : sProp 𝕄)
      = bigSep Finset.univ fun c : Fin (grid0.bound 0) => bigSep Finset.univ fun i : Fin (grid0.bound 1) => vLoc d ↦[pc (coordsV c i)]{fullShare} f :=
  LibNestedSplit.pointsTo_nested_two (ℓ := vLoc d) (fun c i => pc (coordsV c i)) (fun c i c' i' h => pc_disjoint c c' i i' h) pc_cover
theorem whole_ok (d : Dev nD) (f : Flat F) :
    (okLoc d ↦{fullShare} f : sProp 𝕄)
      = bigSep Finset.univ fun c : Fin (grid0.bound 0) => bigSep Finset.univ fun i : Fin (grid0.bound 1) => okLoc d ↦[pc (coordsV c i)]{fullShare} f :=
  LibNestedSplit.pointsTo_nested_two (ℓ := okLoc d) (fun c i => pc (coordsV c i)) (fun c i c' i' h => pc_disjoint c c' i i' h) pc_cover
theorem whole_ov (d : Dev nD) (f : Flat F) :
    (ovLoc d ↦{fullShare} f : sProp 𝕄)
      = bigSep Finset.univ fun c : Fin (grid0.bound 0) => bigSep Finset.univ fun i : Fin (grid0.bound 1) => ovLoc d ↦[pc (coordsV c i)]{fullShare} f :=
  LibNestedSplit.pointsTo_nested_two (ℓ := ovLoc d) (fun c i => pc (coordsV c i)) (fun c i c' i' h => pc_disjoint c c' i i' h) pc_cover

/-- All 32 shares together are the four arrays whole. -/
theorem shares_whole (d : Dev nD) (a b a' b' : Flat F) :
    (bigSep Finset.univ fun c : Fin (grid0.bound 0) => bigSep Finset.univ fun i : Fin (grid0.bound 1) => goRes (F := F) d (coordsV c i) a b a' b')
      = iprop((kLoc d ↦{fullShare} a) ∗ (vLoc d ↦{fullShare} b) ∗ (okLoc d ↦{fullShare} a') ∗ (ovLoc d ↦{fullShare} b')) := by
  rw [whole_k d a, whole_v d b, whole_ok d a', whole_ov d b']
  simp only [bigSep_sep']

/-! ## The TensorCore's arrays as a valuation -/

abbrev x0' : DevRef τ sig := Proc.devRef .tc (main_arg0 : Ref sig .tc)
abbrev x1' : DevRef τ sig := Proc.devRef .tc (main_arg1 : Ref sig .tc)
abbrev x2' : DevRef τ sig := Proc.devRef .tc (main_arg2 : Ref sig .tc)
abbrev x3' : DevRef τ sig := Proc.devRef .tc (main_arg3 : Ref sig .tc)
abbrev x4' : DevRef τ sig := Proc.devRef .tc (main_arg4 : Ref sig .tc)
abbrev x5' : DevRef τ sig := Proc.devRef .tc (main_arg5 : Ref sig .tc)
abbrev k' : DevRef τ sig := Proc.devRef .tc (main_v0 : Ref sig .tc)
abbrev v' : DevRef τ sig := Proc.devRef .tc (main_v1 : Ref sig .tc)
abbrev ok' : DevRef τ sig := Proc.devRef .tc (main_v2_0 : Ref sig .tc)
abbrev ov' : DevRef τ sig := Proc.devRef .tc (main_v2_1 : Ref sig .tc)
abbrev r3' : DevRef τ sig := Proc.devRef .tc (main_v3 : Ref sig .tc)
abbrev r4' : DevRef τ sig := Proc.devRef .tc (main_v4 : Ref sig .tc)

/-- Every array of the device (none is scoped). -/
abbrev UC : Finset (DevRef τ sig) := Pipeline.ucRefs τ sig
/-- The four flat arrays. -/
abbrev T4 : Finset (DevRef τ sig) := {k', v', ok', ov'}

theorem T4_sub : T4 ⊆ UC := by decide

/-- The device's arrays at a valuation: the four flat ones, and the rest. -/
theorem held_four (d : Dev nD) (W : Valuation τ sig (Elt F)) :
    (held (SparseCore.T d) UC W : sProp 𝕄)
      = iprop(((kLoc d ↦{fullShare} W k') ∗ (vLoc d ↦{fullShare} W v') ∗ (okLoc d ↦{fullShare} W ok') ∗ (ovLoc d ↦{fullShare} W ov'))
          ∗ held (SparseCore.T d) (UC \ T4) W) := by
  rw [held_sub_split (SparseCore.T d) T4_sub W]
  congr 1
  unfold held T4
  rw [SparseCore.bigSep_insert' (by decide), SparseCore.bigSep_insert' (by decide), SparseCore.bigSep_insert' (by decide), bigSep_singleton]

variable (m : (ℓ : Loc nD τ sig) → Buf (Elt F) ℓ) (ρ : Dev nD → PrngReg)

variable [FloatOps F]

abbrev op1 : HloOp τ sig (Elt F) := StableHlo.reshape main_arg1 main_v0 rfl Facts₀.shapeCasts_S16x16x2048x128_S67108864
abbrev op2 : HloOp τ sig (Elt F) := StableHlo.reshape main_arg2 main_v1 rfl Facts₀.shapeCasts_S16x16x2048x128_S67108864
abbrev op3 : HloOp τ sig (Elt F) := StableHlo.reshape main_v2_0 main_v3 rfl Facts₀.shapeCasts_S67108864_S16x16x2048x128
abbrev op4 : HloOp τ sig (Elt F) := StableHlo.reshape main_v2_1 main_v4 rfl Facts₀.shapeCasts_S67108864_S16x16x2048x128

theorem h1 : (op1 (F := F)).bufs ⊆ UC := show ({x1', k'} : Finset (DevRef τ sig)) ⊆ UC by decide
theorem h2 : (op2 (F := F)).bufs ⊆ UC := show ({x2', v'} : Finset (DevRef τ sig)) ⊆ UC by decide
theorem h3 : (op3 (F := F)).bufs ⊆ UC := show ({ok', r3'} : Finset (DevRef τ sig)) ⊆ UC by decide
theorem h4 : (op4 (F := F)).bufs ⊆ UC := show ({ov', r4'} : Finset (DevRef τ sig)) ⊆ UC by decide

/-- The launch contents; after the two flattenings; after the call; after the two un-flattenings. -/
def V0 (d : Dev nD) : Valuation τ sig (Elt F) := fun b => m (d, b)
def V2 (d : Dev nD) : Valuation τ sig (Elt F) := (op2 (F := F)).result ((op1 (F := F)).result (V0 m d))
def srcK (d : Dev nD) : Flat F := V2 m d k'
def srcV (d : Dev nD) : Flat F := V2 m d v'
def oldK (d : Dev nD) : Flat F := V2 m d ok'
def oldV (d : Dev nD) : Flat F := V2 m d ov'
def V3 (d : Dev nD) : Valuation τ sig (Elt F) := Function.update (Function.update (V2 m d) ok' (srcK m d)) ov' (srcV m d)
def V5 (d : Dev nD) : Valuation τ sig (Elt F) := (op4 (F := F)).result ((op3 (F := F)).result (V3 m d))

/-- The call's payloads at this run's contents. -/
abbrev PP : (K (F := F)).Pay (nD := nD) (Val := Elt F) (Name := ℕ) (U := UU) := P (srcK m) (srcV m) (oldK m) (oldV m)

theorem unscoped_held (d : Dev nD) :
    (unscopedBufs d (fun b => m ((SparseCore.T d).loc b)) : sProp 𝕄) = held (SparseCore.T d) UC (V0 m d) :=
  Pipeline.unscopedBufs_held (Ix := HIx 1) (Name := ℕ) (U := UU) (Lvl := ℕ) d (V0 m d)

theorem st0_eq (d : Dev nD) :
    (bigSep Finset.univ fun c : Fin ((K (F := F)).nCore 0) => (PP m).st 0 d c)
      = iprop((kLoc d ↦{fullShare} srcK m d) ∗ (vLoc d ↦{fullShare} srcV m d) ∗ (okLoc d ↦{fullShare} oldK m d) ∗ (ovLoc d ↦{fullShare} oldV m d)) :=
  shares_whole d (srcK m d) (srcV m d) (oldK m d) (oldV m d)
theorem dn0_eq (d : Dev nD) :
    (bigSep Finset.univ fun c : Fin ((K (F := F)).nCore 0) => (PP m).dn 0 d c)
      = iprop((kLoc d ↦{fullShare} srcK m d) ∗ (vLoc d ↦{fullShare} srcV m d) ∗ (okLoc d ↦{fullShare} srcK m d) ∗ (ovLoc d ↦{fullShare} srcV m d)) :=
  shares_whole d (srcK m d) (srcV m d) (srcK m d) (srcV m d)

/-- After the call the device's arrays are at the valuation with the flat destinations at the flat sources. -/
theorem held_V3 (d : Dev nD) :
    (held (SparseCore.T d) UC (V3 m d) : sProp 𝕄)
      = iprop(((kLoc d ↦{fullShare} srcK m d) ∗ (vLoc d ↦{fullShare} srcV m d) ∗ (okLoc d ↦{fullShare} srcK m d) ∗ (ovLoc d ↦{fullShare} srcV m d))
          ∗ held (SparseCore.T d) (UC \ T4) (V2 m d)) := by
  rw [held_four d (V3 m d)]
  have e1 : V3 m d k' = srcK m d := by
    unfold V3; rw [Function.update_of_ne (show k' ≠ ov' by decide), Function.update_of_ne (show k' ≠ ok' by decide)]; rfl
  have e2 : V3 m d v' = srcV m d := by
    unfold V3; rw [Function.update_of_ne (show v' ≠ ov' by decide), Function.update_of_ne (show v' ≠ ok' by decide)]; rfl
  have e3 : V3 m d ok' = srcK m d := by
    unfold V3; rw [Function.update_of_ne (show ok' ≠ ov' by decide), Function.update_self]
  have e4 : V3 m d ov' = srcV m d := by
    unfold V3; rw [Function.update_self]
  rw [e1, e2, e3, e4]
  congr 1

/-- What @main leaves the claim: every array of the device at its final contents. -/
abbrev FIN (d : Dev nD) : sProp 𝕄 := held (SparseCore.T d) UC (V5 m d)

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two flattenings
  iapply (wp_hlo_within 𝒱 (SparseCore.T d) none Set.univ (op := op1) (S := UC) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := UC) h2 (V := (op1 (F := F)).result (V0 m d))) $$ [Hb Hheld]
  · isplitl [Hb]; · iexact Hb
    iexact Hheld
  iintro ⟨Hb, Hheld⟩
  rw [wp_ret]; imodintro
  -- the call: the four flat arrays out of the device's arrays, cut into the 32 shares, and back
  rw [show (op2 (F := F)).result ((op1 (F := F)).result (V0 m d)) = V2 m d from rfl]
  ihave Hh := (Entails.of_eq (held_four (F := F) d (V2 m d))) $$ Hheld
  icases Hh with ⟨⟨Hk, Hv, Hok, Hov⟩, Hrest⟩
  iapply ((K (F := F)).wp_run (D (F := F)) 𝒱 (EH := EH) (P := PP m) κ d 0) $$ [Hst Hk Hv Hok Hov Hb Hrest]
  isplitr; · iexact Hctx
  isplitl [Hst]; · iexact Hst
  isplitl [Hk Hv Hok Hov]
  · rw [st0_eq]
    isplitl [Hk]; · iexact Hk
    isplitl [Hv]; · iexact Hv
    isplitl [Hok]; · iexact Hok
    iexact Hov
  iintro ⟨Hst, Hdn⟩
  ihave Hdn' := (Entails.of_eq (dn0_eq m d)) $$ Hdn
  icases Hdn' with ⟨Hk, Hv, Hok, Hov⟩
  ihave Hheld := (Entails.of_eq (held_V3 m d).symm) $$ [Hk Hv Hok Hov Hrest]
  · isplitl [Hk Hv Hok Hov]
    · isplitl [Hk]; · iexact Hk
      isplitl [Hv]; · iexact Hv
      isplitl [Hok]; · iexact Hok
      iexact Hov
    · iexact Hrest
  -- the two un-flattenings
  iapply (wp_hlo_within 𝒱 (SparseCore.T d) none Set.univ (op := op3) (S := UC) h3 (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := UC) h4 (V := (op3 (F := F)).result (V3 m d))) $$ [Hb Hheld]
  · isplitl [Hb]; · iexact Hb
    iexact Hheld
  iintro ⟨Hb, Hheld⟩
  rw [wp_ret]; imodintro; imodintro
  isplitl [Hst]; · iexact Hst
  iexact Hheld

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair _ _) $$ Hu
  icases H with ⟨HH, -⟩
  imodintro
  isplitl [HH]; · iexact HH
  isplitr; · rw [bigSep_emp']; iempintro
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the final memory -/

omit [FloatOps F] in
/-- Arrays held whole at a valuation are, in any state the assertion holds of, at that valuation. -/
theorem held_agree (d : Dev nD) (W : Valuation τ sig (Elt F)) (s' : Phys nD τ sig (Elt F)) (S : Finset (DevRef τ sig)) :
    iprop(held (SparseCore.T d) S W ∗ SI s') ⊢ (⌜∀ b ∈ S, s'.mem.mem (d, b) = W b⌝ : sProp 𝕄) := by
  induction S using Finset.induction_on with
  | empty =>
    iintro -
    ipureintro
    intro b hb
    exact absurd hb (Finset.notMem_empty b)
  | insert b S hb ih =>
    unfold held at ih ⊢
    rw [SparseCore.bigSep_insert' hb]
    iintro ⟨⟨Hb, HS⟩, HSI⟩
    ihave H := (persistent_entails_right (SI_pointsTo_agree (st := s') (ℓ := (d, b)) (I := Finset.univ) (q := fullShare) (f := W b))) $$ [HSI Hb]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | h
    · exact funext fun i => h1 i (Finset.mem_univ i)
    · exact h2 b' h

def fq (d : Dev nD) (s' : Phys nD τ sig (Elt F)) : Prop := ∀ b ∈ UC, s'.mem.mem (d, b) = V5 m d b

theorem hfin (d : Dev nD) (s' : Phys nD τ sig (Elt F)) : iprop(FIN m d ∗ SI s') ⊢ (⌜fq m d s'⌝ : sProp 𝕄) :=
  held_agree d (V5 m d) s' UC

/-! ## The final contents -/

/-- An array none of the four re-indexings writes and the call does not fill keeps its launch contents. -/
theorem V5_kept (d : Dev nD) (b : DevRef τ sig) (h4' : b ∉ ({r4'} : Finset (DevRef τ sig))) (h3' : b ∉ ({r3'} : Finset (DevRef τ sig)))
    (hov : b ≠ ov') (hok : b ≠ ok') (h2' : b ∉ ({v'} : Finset (DevRef τ sig))) (h1' : b ∉ ({k'} : Finset (DevRef τ sig))) :
    V5 m d b = m (d, b) := by
  unfold V5
  rw [(op4 (F := F)).result_of_not_mem _ h4', (op3 (F := F)).result_of_not_mem _ h3']
  unfold V3
  rw [Function.update_of_ne hov, Function.update_of_ne hok]
  unfold V2
  rw [(op2 (F := F)).result_of_not_mem _ h2', (op1 (F := F)).result_of_not_mem _ h1']
  rfl

/-- The flat copy of the first value array. -/
theorem srcK_eq (d : Dev nD) : srcK m d = shapeCast S67108864 (m (d, x1')) Facts₀.shapeCasts_S16x16x2048x128_S67108864 := by
  unfold srcK V2
  rw [(op2 (F := F)).result_of_not_mem _ (show k' ∉ ({v'} : Finset (DevRef τ sig)) by decide)]
  exact StableHlo.reshape_result' (x := main_arg1) (y := main_v0) rfl Facts₀.shapeCasts_S16x16x2048x128_S67108864 _ _ (V0 m d)
theorem srcV_eq (d : Dev nD) : srcV m d = shapeCast S67108864 (m (d, x2')) Facts₀.shapeCasts_S16x16x2048x128_S67108864 := by
  unfold srcV V2
  exact StableHlo.reshape_result' (x := main_arg2) (y := main_v1) rfl Facts₀.shapeCasts_S16x16x2048x128_S67108864 _ _ ((op1 (F := F)).result (V0 m d))

theorem V3_ok (d : Dev nD) : V3 m d ok' = srcK m d := by
  unfold V3; rw [Function.update_of_ne (show ok' ≠ ov' by decide), Function.update_self]
theorem V3_ov (d : Dev nD) : V3 m d ov' = srcV m d := by
  unfold V3; rw [Function.update_self]

/-- The first result: the first value array flattened, copied, and un-flattened — the array itself. -/
theorem V5_r3 (d : Dev nD) : V5 m d r3' = m (d, x1') := by
  unfold V5
  rw [(op4 (F := F)).result_of_not_mem _ (show r3' ∉ ({r4'} : Finset (DevRef τ sig)) by decide)]
  refine (StableHlo.reshape_result' (x := main_v2_0) (y := main_v3) rfl Facts₀.shapeCasts_S67108864_S16x16x2048x128 _ _ (V3 m d)).trans ?_
  show shapeCast S16x16x2048x128 (V3 m d ok') Facts₀.shapeCasts_S67108864_S16x16x2048x128 = _
  rw [V3_ok, srcK_eq]
  exact shapeCast_shapeCast _ _ _
/-- The second result, likewise the second value array. -/
theorem V5_r4 (d : Dev nD) : V5 m d r4' = m (d, x2') := by
  unfold V5
  refine (StableHlo.reshape_result' (x := main_v2_1) (y := main_v4) rfl Facts₀.shapeCasts_S67108864_S16x16x2048x128 _ _ ((op3 (F := F)).result (V3 m d))).trans ?_
  show shapeCast S16x16x2048x128 ((op3 (F := F)).result (V3 m d) ov') Facts₀.shapeCasts_S67108864_S16x16x2048x128 = _
  rw [(op3 (F := F)).result_of_not_mem _ (show ov' ∉ ({r3'} : Finset (DevRef τ sig)) by decide), V3_ov, srcV_eq]
  exact shapeCast_shapeCast _ _ _

/-! ## The program's run -/

/-- Every weakly fair execution ends with the two results at the two value arrays and every argument unchanged. -/
def QC : PUnit × MemSt nD τ sig (Elt F) → Prop := fun r => ∀ c : Dev nD,
  r.2.mem ((c.tc : Thread nD τ).loc main_v3) = m ((c.tc : Thread nD τ).loc main_arg1)
  ∧ r.2.mem ((c.tc : Thread nD τ).loc main_v4) = m ((c.tc : Thread nD τ).loc main_arg2)
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem kept_arg (d : Dev nD) (b : DevRef τ sig) (hb : b ∈ ({x0', x1', x2', x3', x4', x5'} : Finset (DevRef τ sig))) : V5 m d b = m (d, b) := by
  have h : b ∉ ({r4'} : Finset (DevRef τ sig)) ∧ b ∉ ({r3'} : Finset (DevRef τ sig)) ∧ b ≠ ov' ∧ b ≠ ok'
      ∧ b ∉ ({v'} : Finset (DevRef τ sig)) ∧ b ∉ ({k'} : Finset (DevRef τ sig)) := by
    revert b; decide
  exact V5_kept m d b h.1 h.2.1 h.2.2.1 h.2.2.2.1 h.2.2.2.2.1 h.2.2.2.2.2

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (srcK m) (srcV m) (oldK m) (oldV m))
    (fun q _ => match q with | 0 => SparseCore.Cfg.VecSplit.of_plain (vecSplit (srcK m) (srcV m) (oldK m) (oldV m)))
    m ρ main (fun _ => iprop(emp)) (FIN m) (u₀ (F := F)) (sep_elim_left.trans (hu₀ m)) (hmain m ρ) (fq m) (hfin m) (QC m)
    (fun s' h c => ⟨(h c r3' (by decide)).trans (V5_r3 m c), (h c r4' (by decide)).trans (V5_r4 m c),
      (h c x0' (by decide)).trans (kept_arg m c x0' (by decide)), (h c x1' (by decide)).trans (kept_arg m c x1' (by decide)),
      (h c x2' (by decide)).trans (kept_arg m c x2' (by decide)), (h c x3' (by decide)).trans (kept_arg m c x3' (by decide)),
      (h c x4' (by decide)).trans (kept_arg m c x4' (by decide)), (h c x5' (by decide)).trans (kept_arg m c x5' (by decide))⟩)

end Cert.Proof.IdealFill

end
-- ==== Proof.BitsSetup.lean ====
/-
  The copy kernel on the program as printed: what the launch hands each vector subcore.

  The flattened arrays of 67,108,864 words are cut into 32 consecutive pieces of 2,097,152 words; vector
  subcore s of SparseCore c copies piece 2·s + c of each source array onto the same piece of its
  destination array. This module fixes the pieces, shows that they are pairwise disjoint and cover the
  array, and states what travels with the launch's handshakes: to a subcore its piece of the four arrays,
  back from it the same pieces with the destinations holding the sources' contents.
-/
import proofs.«209732_g49563922596461_cont_8to1_c_1115_2_alg».proof.Defs
import Idealize.ShloMosaic.Lib.SparseCore.Launch
import Idealize.ShloMosaic.Lib.StableHlo.Run
import Idealize.ShloMosaic.Lib.Pipeline.Kit
import Idealize.ShloMosaic.Lib.Tactic
import proofs.«209732_g49563922596461_cont_8to1_c_1115_2_alg».proof.Proof.Gen.Kernel
import proofs.«209732_g49563922596461_cont_8to1_c_1115_2_alg».proof.Proof.Gen.Kernel.Skeleton

noncomputable section

namespace Cert.Proof.BitsFill

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = grid0.bound 0 := rfl
theorem nSub_zero : (K (F := F)).nSub 0 = grid0.bound 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The four flat arrays and their pieces -/

abbrev kLoc (d : Dev nD) : Loc nD τ sig := (SparseCore.T d).loc main_v0
abbrev vLoc (d : Dev nD) : Loc nD τ sig := (SparseCore.T d).loc main_v1
abbrev okLoc (d : Dev nD) : Loc nD τ sig := (SparseCore.T d).loc main_v2_0
abbrev ovLoc (d : Dev nD) : Loc nD τ sig := (SparseCore.T d).loc main_v2_1

/-- The contents of one flat array. -/
abbrev Flat (F : FTy → Type) : Type := S67108864.Idx → Elt F .f32

abbrev aK : Memref sig .scVector .hbm S67108864 .f32 := Memref.whole main_v0_scv
abbrev aV : Memref sig .scVector .hbm S67108864 .f32 := Memref.whole main_v1_scv
abbrev oK : Memref sig .scVector .hbm S67108864 .f32 := Memref.whole main_v2_0_scv
abbrev oV : Memref sig .scVector .hbm S67108864 .f32 := Memref.whole main_v2_1_scv

/-- The rectangle a subcore at grid coordinates `L` slices out of each array: 2,097,152 words from its offset. -/
abbrev rc (L : grid0.Coords) : Rect S67108864 := Rect.unit (s := S67108864) (k0_off1 L) S2097152.size (k0_off1_inb L)
/-- Its elements. -/
abbrev pc (L : grid0.Coords) : Finset S67108864.Idx := (rc L).set

abbrev aKs (L : grid0.Coords) : Memref sig .scVector .hbm S2097152 .f32 := (aK).slice (rc L) (fun _ => rfl)
abbrev aVs (L : grid0.Coords) : Memref sig .scVector .hbm S2097152 .f32 := (aV).slice (rc L) (fun _ => rfl)
abbrev oKs (L : grid0.Coords) : Memref sig .scVector .hbm S2097152 .f32 := (oK).slice (rc L) (fun _ => rfl)
abbrev oVs (L : grid0.Coords) : Memref sig .scVector .hbm S2097152 .f32 := (oV).slice (rc L) (fun _ => rfl)

def coordsV (c : Fin (grid0.bound 0)) (s : Fin (grid0.bound 1)) : grid0.Coords :=
  fun | 0 => c | 1 => s | ⟨_ + 2, h⟩ => absurd h (Nat.not_lt.2 (Nat.le_add_left _ _))

/-- An element lies in the piece at `L` exactly when its position is in the piece's range of 2,097,152 positions. -/
theorem mem_pc (L : grid0.Coords) (x : S67108864.Idx) :
    x ∈ pc L ↔ 4194304 * (L 1).val + 2097152 * (L 0).val ≤ (x 0).val ∧ (x 0).val < 4194304 * (L 1).val + 2097152 * (L 0).val + 2097152 := by
  unfold pc rc
  rw [Rect.mem_set_unit]
  constructor
  · intro h
    have h0 := h 0
    rw [k0_off1_eq] at h0
    exact h0
  · intro h a
    match a with
    | ⟨0, _⟩ => rw [k0_off1_eq]; exact h

/-- Pieces at different coordinates have no element in common. -/
theorem pc_disjoint (c c' : Fin (grid0.bound 0)) (s s' : Fin (grid0.bound 1)) (h : c ≠ c' ∨ s ≠ s') :
    Disjoint (pc (coordsV c s)) (pc (coordsV c' s')) := by
  rw [Finset.disjoint_left]
  intro x hx hx'
  rw [mem_pc] at hx hx'
  have hc : c.val < 2 := c.isLt
  have hc' : c'.val < 2 := c'.isLt
  have e1 : (coordsV c s 0).val = c.val := rfl
  have e2 : (coordsV c s 1).val = s.val := rfl
  have e3 : (coordsV c' s' 0).val = c'.val := rfl
  have e4 : (coordsV c' s' 1).val = s'.val := rfl
  rw [e1, e2] at hx
  rw [e3, e4] at hx'
  rcases h with h | h
  · exact h (Fin.ext (by omega))
  · exact h (Fin.ext (by omega))

/-- Every element lies in some piece. -/
theorem pc_cover (x : S67108864.Idx) : ∃ (c : Fin (grid0.bound 0)) (s : Fin (grid0.bound 1)), x ∈ pc (coordsV c s) := by
  have hx : (x 0).val < 67108864 := (x 0).isLt
  refine ⟨⟨((x 0).val / 2097152) % 2, Nat.mod_lt _ (by decide)⟩, ⟨(x 0).val / 4194304, ?_⟩, ?_⟩
  · show (x 0).val / 4194304 < 16
    omega
  · rw [mem_pc]
    show 4194304 * ((x 0).val / 4194304) + 2097152 * (((x 0).val / 2097152) % 2) ≤ (x 0).val
      ∧ (x 0).val < 4194304 * ((x 0).val / 4194304) + 2097152 * (((x 0).val / 2097152) % 2) + 2097152
    omega

/-! ## What the handshakes carry -/

variable [FloatOps F]

/-- A subcore's share before its task: its piece of the two source arrays at `a`, `b`, and of the two destination arrays
    at whatever they hold (`a'`, `b'`). -/
abbrev goRes (d : Dev nD) (L : grid0.Coords) (a b a' b' : Flat F) : sProp 𝕄 :=
  iprop((kLoc d ↦[pc L]{fullShare} a) ∗ (vLoc d ↦[pc L]{fullShare} b) ∗ (okLoc d ↦[pc L]{fullShare} a') ∗ (ovLoc d ↦[pc L]{fullShare} b'))

/-- The call's payloads, parametrised by the sources' contents `a d`, `b d` and the destinations' prior contents: a
    SparseCore is handed its sixteen subcores' shares and hands back the same, the destinations at the sources' contents. -/
def P (a b a' b' : Dev nD → Flat F) : (K (F := F)).Pay (nD := nD) (Val := Elt F) (Name := ℕ) (U := UU) where
  st := fun q d c => match q with
    | 0 => bigSep Finset.univ fun i : Fin (grid0.bound 1) => goRes d (coordsV (Fin.cast nCore_zero c) i) (a d) (b d) (a' d) (b' d)
  dn := fun q d c => match q with
    | 0 => bigSep Finset.univ fun i : Fin (grid0.bound 1) => goRes d (coordsV (Fin.cast nCore_zero c) i) (a d) (b d) (a d) (b d)
  go := fun q d c i => match q with
    | 0 => goRes d (coordsV (Fin.cast nCore_zero c) (Fin.cast nSub_zero i)) (a d) (b d) (a' d) (b' d)
  td := fun q d c i => match q with
    | 0 => goRes d (coordsV (Fin.cast nCore_zero c) (Fin.cast nSub_zero i)) (a d) (b d) (a d) (b d)
  x := fun _ _ => iprop(emp)

instance P_storable (a b a' b' : Dev nD → Flat F) : (P (F := F) a b a' b').IsStorable where
  st q d c := match q with | 0 => by unfold P; infer_instance
  dn q d c := match q with | 0 => by unfold P; infer_instance
  go q d c i := match q with | 0 => by unfold P; infer_instance
  td q d c i := match q with | 0 => by unfold P; infer_instance

end Cert.Proof.BitsFill

end
-- ==== Proof.BitsTile.lean ====
/-
  One vector subcore's task: two copies, each of the subcore's piece of a source array onto the same piece of
  the destination array, each on its own semaphore, then the two waits. The destination pieces end at the
  sources' contents.
-/
import proofs.«209732_g49563922596461_cont_8to1_c_1115_2_alg».proof.Defs
import Idealize.ShloMosaic.Lib.SparseCore.Launch
import Idealize.ShloMosaic.Lib.StableHlo.Run
import Idealize.ShloMosaic.Lib.Pipeline.Kit
import Idealize.ShloMosaic.Lib.Tactic
import proofs.«209732_g49563922596461_cont_8to1_c_1115_2_alg».proof.Proof.Gen.Kernel
import proofs.«209732_g49563922596461_cont_8to1_c_1115_2_alg».proof.Proof.Gen.Kernel.Skeleton
import proofs.«209732_g49563922596461_cont_8to1_c_1115_2_alg».proof.Proof.BitsSetup
import proofs.«209732_g49563922596461_cont_8to1_c_1115_2_alg».proof.Proof.LibWholeView

noncomputable section

namespace Cert.Proof.BitsFill

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords)

abbrev cV (L : grid0.Coords) : Fin τ.nSC := (L 0).castLE hcore0
abbrev jV (L : grid0.Coords) : Fin τ.nSub := (L 1).castLE hsub0

abbrev semK (d : Dev nD) (L : grid0.Coords) : GSem nD τ sig := (V d (cV L) (jV L), .dma cc0_scratch0.sem)
abbrev semV (d : Dev nD) (L : grid0.Coords) : GSem nD τ sig := (V d (cV L) (jV L), .dma cc0_scratch1.sem)

/-- The subcore's two copy semaphores are among its own; the rest stay as they are. -/
theorem ownSems0_V :
    (ownSems0 (V d (cV L) (jV L)) : sProp 𝕄)
      = iprop(semVal (semK d L) 0 ∗ semVal (semV d L) 0
          ∗ bigSep (((ownCells (V d (cV L) (jV L))).erase (semK d L)).erase (semV d L)) fun g => semVal g 0) := by
  unfold SparseCore.Cfg.ownSems0
  rw [SparseCore.bigSep_erase' ((mem_ownCells (g := semK d L)).mpr ⟨rfl, by
      show (SemLoc.dma cc0_scratch0.sem : SemLoc sig).isScoped .scVector = true; decide⟩),
    SparseCore.bigSep_erase' (Finset.mem_erase.mpr ⟨by simp [semK, semV]; decide, (mem_ownCells (g := semV d L)).mpr ⟨rfl, by
      show (SemLoc.dma cc0_scratch1.sem : SemLoc sig).isScoped .scVector = true; decide⟩⟩)]

/-- A piece held through the slice the program takes is the piece of the device's array. -/
theorem pts_aKs (f : Flat F) :
    ((aKs L).view.loc (V d (cV L) (jV L)) ↦[(aKs L).view.set]{fullShare} f : sProp 𝕄) = kLoc d ↦[pc L]{fullShare} f := by
  rw [show (aKs L).view.set = pc L from View.set_slice_whole _ _]
theorem pts_aVs (f : Flat F) :
    ((aVs L).view.loc (V d (cV L) (jV L)) ↦[(aVs L).view.set]{fullShare} f : sProp 𝕄) = vLoc d ↦[pc L]{fullShare} f := by
  rw [show (aVs L).view.set = pc L from View.set_slice_whole _ _]
theorem pts_oKs (f : Flat F) :
    ((oKs L).view.loc (V d (cV L) (jV L)) ↦[(oKs L).view.set]{fullShare} f : sProp 𝕄) = okLoc d ↦[pc L]{fullShare} f := by
  rw [show (oKs L).view.set = pc L from View.set_slice_whole _ _]
theorem pts_oVs (f : Flat F) :
    ((oVs L).view.loc (V d (cV L) (jV L)) ↦[(oVs L).view.set]{fullShare} f : sProp 𝕄) = ovLoc d ↦[pc L]{fullShare} f := by
  rw [show (oVs L).view.set = pc L from View.set_slice_whole _ _]

/-- The destination piece, written whole with what the source piece reads, holds the source's contents on the piece:
    both slices address the same positions of their arrays. -/
theorem pts_landK (a a' : Flat F) (X : S2097152.Idx → Elt F .f32) (hX : X = (aKs L).view.read (Elt F) a) :
    ((oKs L).view.loc (V d (cV L) (jV L)) ↦[(oKs L).view.set]{fullShare}
        (oKs L).view.writes (Elt F) a' [⟨Rect.whole S2097152, X⟩] : sProp 𝕄) = okLoc d ↦[pc L]{fullShare} a := by
  rw [pointsTo_congr (g := a) (LibWholeView.eq_on_set_of_read_eq (oKs L).view _ a (by
    rw [LibWholeView.read_writes_whole_cons, hX]; rfl))]
  exact pts_oKs d L a
theorem pts_landV (b b' : Flat F) (X : S2097152.Idx → Elt F .f32) (hX : X = (aVs L).view.read (Elt F) b) :
    ((oVs L).view.loc (V d (cV L) (jV L)) ↦[(oVs L).view.set]{fullShare}
        (oVs L).view.writes (Elt F) b' [⟨Rect.whole S2097152, X⟩] : sProp 𝕄) = ovLoc d ↦[pc L]{fullShare} b := by
  rw [pointsTo_congr (g := b) (LibWholeView.eq_on_set_of_read_eq (oVs L).view _ b (by
    rw [LibWholeView.read_writes_whole_cons, hX]; rfl))]
  exact pts_oVs d L b

variable [FloatOps F]

theorem tile_body (a b a' b' : Flat F) (O : CellTallies nD τ sig (HIx 1)) (W : Waits sig (HIx 1)) (hO : ∀ g, O g none = 0) :
    iprop(levAts (K (F := F)).L (K (F := F)).lev ∗ emp ∗ goRes d L a b a' b'
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_fill L aK (Memref.isWhole_whole _) aV (Memref.isWhole_whole _) oK (Memref.isWhole_whole _) oV (Memref.isWhole_whole _) cc0_scratch0 cc0_scratch1)
          fun _ => iprop(goRes d L a b a b ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_fill_eq_skeleton]; unfold cc0_fill_skel
  rw [SparseCore.Cfg.scopedSems0_V (Val := Elt F) d (cV L) (jV L), ownSems0_V]
  iintro ⟨#Hlv, -, ⟨Hk, Hv, Hok, Hov⟩, Hsb, ⟨HsemK, HsemV, Hsems⟩, HO⟩
  ihave Hmw := ((K (F := F)).mayWaits_none (thr := V d (cV L) (jV L)) hO) $$ Hlv
  ihave Hk' := (Entails.of_eq (pts_aKs (F := F) d L _).symm) $$ Hk
  ihave Hv' := (Entails.of_eq (pts_aVs (F := F) d L _).symm) $$ Hv
  ihave Hok' := (Entails.of_eq (pts_oKs (F := F) d L _).symm) $$ Hok
  ihave Hov' := (Entails.of_eq (pts_oVs (F := F) d L _).symm) $$ Hov
  sl_exec
  have eK : tile_body.sl.dma0 L a = (aKs L).view.read (Elt F) a := by
    unfold tile_body.sl.dma0; rw [ReadAs.apply_same]
  have eV : tile_body.sl.dma0_1 L b = (aVs L).view.read (Elt F) b := by
    unfold tile_body.sl.dma0_1; rw [ReadAs.apply_same]
  sl_step
  isplitl [Hk' Hv' Hok' Hov']
  · isplitl [Hk']; · iapply (Entails.of_eq (pts_aKs (F := F) d L a)); iexact Hk'
    isplitl [Hv']; · iapply (Entails.of_eq (pts_aVs (F := F) d L b)); iexact Hv'
    isplitl [Hok']; · iapply (Entails.of_eq (pts_landK (F := F) d L a a' _ eK)); iexact Hok'
    iapply (Entails.of_eq (pts_landV (F := F) d L b b' _ eV)); iexact Hov'
  isplitl [Hsb]; · iexact Hsb
  isplitl [HsemK HsemV Hsems]
  · isplitl [HsemK]; · iexact HsemK
    isplitl [HsemV]; · iexact HsemV
    iexact Hsems
  iexists (insert (SemLoc.dma cc0_scratch1.sem, (default : HIx 1)) (insert (SemLoc.dma cc0_scratch0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Tile

/-! ## The launch theorem's obligations for the vector subcores -/

variable [FloatOps F]

theorem defs₀_vector (c : Fin τ.nSC) (s : Fin τ.nSub) :
    defs₀ (F := F) (.scVector c s) 0 ()
      = SparseCore.onTile hcore0 hsub0 (fun c s => cc0_fill (coordsV c s)
          aK (Memref.isWhole_whole _) aV (Memref.isWhole_whole _) oK (Memref.isWhole_whole _) oV (Memref.isWhole_whole _)
          cc0_scratch0 cc0_scratch1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore of the grid runs the task from its share to the share with the destinations filled. -/
theorem tileObl (a b a' b' : Dev nD → Flat F) : (K (F := F)).TileObl (D (F := F)) 𝒱 (P a b a' b') v₀ 0 := by
  intro d c i O W hO _ _
  simp only [show (P a b a' b').ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (a d) (b d) (a' d) (b' d) O W hO).trans (wp_mono frame _ _ fun _ => obl_post)

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands are its sixteen subcores' shares, and its results theirs. -/
theorem vecSplit (a b a' b' : Dev nD → Flat F) : (K (F := F)).VecSplit' (P a b a' b') 0 := by
  intro d c
  show (bigSep Finset.univ fun i : Fin (grid0.bound 1) => goRes d (coordsV (Fin.cast nCore_zero c) i) (a d) (b d) (a' d) (b' d))
    ⊢ |={Set.univ}=> iprop(
      (bigSep Finset.univ fun i : Fin ((K (F := F)).nSub 0) =>
        goRes d (coordsV (Fin.cast nCore_zero c) (Fin.cast nSub_zero i)) (a d) (b d) (a' d) (b' d))
      ∗ ((bigSep Finset.univ fun i : Fin ((K (F := F)).nSub 0) =>
          goRes d (coordsV (Fin.cast nCore_zero c) (Fin.cast nSub_zero i)) (a d) (b d) (a d) (b d))
          -∗ (bigSep Finset.univ fun i : Fin (grid0.bound 1) => goRes d (coordsV (Fin.cast nCore_zero c) i) (a d) (b d) (a d) (b d))))
  rw [bigSep_tasks (F := F) (fun i => goRes d (coordsV (Fin.cast nCore_zero c) i) (a d) (b d) (a' d) (b' d)),
    bigSep_tasks (F := F) (fun i => goRes d (coordsV (Fin.cast nCore_zero c) i) (a d) (b d) (a d) (b d))]
  iintro H; imodintro
  isplitl [H]; · iexact H
  iintro H; iexact H

end Cert.Proof.BitsFill

end
-- ==== Proof.BitsMain.lean ====
/-
  The copy program's run on the program as printed. On the TensorCore, @main flattens the two value arrays, hands the
  two SparseCores the flat sources and destinations cut into their 32 pieces, gets the pieces back with every
  destination piece at the source's contents — so the flat destinations hold the flat sources whole —, and
  un-flattens them: flattening and un-flattening are inverse re-indexings, so the two results are the two value
  arrays, and no argument array is ever written.
-/
import proofs.«209732_g49563922596461_cont_8to1_c_1115_2_alg».proof.Defs
import Idealize.ShloMosaic.Lib.SparseCore.Launch
import Idealize.ShloMosaic.Lib.StableHlo.Run
import Idealize.ShloMosaic.Lib.Pipeline.Kit
import Idealize.ShloMosaic.Lib.Tactic
import proofs.«209732_g49563922596461_cont_8to1_c_1115_2_alg».proof.Proof.Gen.Kernel
import proofs.«209732_g49563922596461_cont_8to1_c_1115_2_alg».proof.Proof.Gen.Kernel.Skeleton
import proofs.«209732_g49563922596461_cont_8to1_c_1115_2_alg».proof.Proof.BitsTile
import proofs.«209732_g49563922596461_cont_8to1_c_1115_2_alg».proof.Proof.LibNestedSplit
import Idealize.ShloMosaic.Lib.Pipeline.Value
import Idealize.ShloMosaic.Lib.Pipeline.Frame

noncomputable section

namespace Cert.Proof.BitsFill

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within)

variable {F : FTy → Type}

local notation "𝕄" => MT nD τ sig (HIx 1) (Elt F) ℕ UU ℕ

/-! ## The whole flat arrays and their pieces -/

theorem whole_k (d : Dev nD) (f : Flat F) :
    (kLoc d ↦{fullShare} f : sProp 𝕄)
      = bigSep Finset.univ fun c : Fin (grid0.bound 0) => bigSep Finset.univ fun i : Fin (grid0.bound 1) => kLoc d ↦[pc (coordsV c i)]{fullShare} f :=
  LibNestedSplit.pointsTo_nested_two (ℓ := kLoc d) (fun c i => pc (coordsV c i)) (fun c i c' i' h => pc_disjoint c c' i i' h) pc_cover
theorem whole_v (d : Dev nD) (f : Flat F) :
    (vLoc d ↦{fullShare} f : sProp 𝕄)
      = bigSep Finset.univ fun c : Fin (grid0.bound 0) => bigSep Finset.univ fun i : Fin (grid0.bound 1) => vLoc d ↦[pc (coordsV c i)]{fullShare} f :=
  LibNestedSplit.pointsTo_nested_two (ℓ := vLoc d) (fun c i => pc (coordsV c i)) (fun c i c' i' h => pc_disjoint c c' i i' h) pc_cover
theorem whole_ok (d : Dev nD) (f : Flat F) :
    (okLoc d ↦{fullShare} f : sProp 𝕄)
      = bigSep Finset.univ fun c : Fin (grid0.bound 0) => bigSep Finset.univ fun i : Fin (grid0.bound 1) => okLoc d ↦[pc (coordsV c i)]{fullShare} f :=
  LibNestedSplit.pointsTo_nested_two (ℓ := okLoc d) (fun c i => pc (coordsV c i)) (fun c i c' i' h => pc_disjoint c c' i i' h) pc_cover
theorem whole_ov (d : Dev nD) (f : Flat F) :
    (ovLoc d ↦{fullShare} f : sProp 𝕄)
      = bigSep Finset.univ fun c : Fin (grid0.bound 0) => bigSep Finset.univ fun i : Fin (grid0.bound 1) => ovLoc d ↦[pc (coordsV c i)]{fullShare} f :=
  LibNestedSplit.pointsTo_nested_two (ℓ := ovLoc d) (fun c i => pc (coordsV c i)) (fun c i c' i' h => pc_disjoint c c' i i' h) pc_cover

/-- All 32 shares together are the four arrays whole. -/
theorem shares_whole (d : Dev nD) (a b a' b' : Flat F) :
    (bigSep Finset.univ fun c : Fin (grid0.bound 0) => bigSep Finset.univ fun i : Fin (grid0.bound 1) => goRes (F := F) d (coordsV c i) a b a' b')
      = iprop((kLoc d ↦{fullShare} a) ∗ (vLoc d ↦{fullShare} b) ∗ (okLoc d ↦{fullShare} a') ∗ (ovLoc d ↦{fullShare} b')) := by
  rw [whole_k d a, whole_v d b, whole_ok d a', whole_ov d b']
  simp only [bigSep_sep']

/-! ## The TensorCore's arrays as a valuation -/

abbrev x0' : DevRef τ sig := Proc.devRef .tc (main_arg0 : Ref sig .tc)
abbrev x1' : DevRef τ sig := Proc.devRef .tc (main_arg1 : Ref sig .tc)
abbrev x2' : DevRef τ sig := Proc.devRef .tc (main_arg2 : Ref sig .tc)
abbrev x3' : DevRef τ sig := Proc.devRef .tc (main_arg3 : Ref sig .tc)
abbrev x4' : DevRef τ sig := Proc.devRef .tc (main_arg4 : Ref sig .tc)
abbrev x5' : DevRef τ sig := Proc.devRef .tc (main_arg5 : Ref sig .tc)
abbrev k' : DevRef τ sig := Proc.devRef .tc (main_v0 : Ref sig .tc)
abbrev v' : DevRef τ sig := Proc.devRef .tc (main_v1 : Ref sig .tc)
abbrev ok' : DevRef τ sig := Proc.devRef .tc (main_v2_0 : Ref sig .tc)
abbrev ov' : DevRef τ sig := Proc.devRef .tc (main_v2_1 : Ref sig .tc)
abbrev r3' : DevRef τ sig := Proc.devRef .tc (main_v3 : Ref sig .tc)
abbrev r4' : DevRef τ sig := Proc.devRef .tc (main_v4 : Ref sig .tc)

/-- Every array of the device (none is scoped). -/
abbrev UC : Finset (DevRef τ sig) := Pipeline.ucRefs τ sig
/-- The four flat arrays. -/
abbrev T4 : Finset (DevRef τ sig) := {k', v', ok', ov'}

theorem T4_sub : T4 ⊆ UC := by decide

/-- The device's arrays at a valuation: the four flat ones, and the rest. -/
theorem held_four (d : Dev nD) (W : Valuation τ sig (Elt F)) :
    (held (SparseCore.T d) UC W : sProp 𝕄)
      = iprop(((kLoc d ↦{fullShare} W k') ∗ (vLoc d ↦{fullShare} W v') ∗ (okLoc d ↦{fullShare} W ok') ∗ (ovLoc d ↦{fullShare} W ov'))
          ∗ held (SparseCore.T d) (UC \ T4) W) := by
  rw [held_sub_split (SparseCore.T d) T4_sub W]
  congr 1
  unfold held T4
  rw [SparseCore.bigSep_insert' (by decide), SparseCore.bigSep_insert' (by decide), SparseCore.bigSep_insert' (by decide), bigSep_singleton]

variable (m : (ℓ : Loc nD τ sig) → Buf (Elt F) ℓ) (ρ : Dev nD → PrngReg)

variable [FloatOps F]

abbrev op1 : HloOp τ sig (Elt F) := StableHlo.reshape main_arg1 main_v0 rfl Facts₀.shapeCasts_S16x16x2048x128_S67108864
abbrev op2 : HloOp τ sig (Elt F) := StableHlo.reshape main_arg2 main_v1 rfl Facts₀.shapeCasts_S16x16x2048x128_S67108864
abbrev op3 : HloOp τ sig (Elt F) := StableHlo.reshape main_v2_0 main_v3 rfl Facts₀.shapeCasts_S67108864_S16x16x2048x128
abbrev op4 : HloOp τ sig (Elt F) := StableHlo.reshape main_v2_1 main_v4 rfl Facts₀.shapeCasts_S67108864_S16x16x2048x128

theorem h1 : (op1 (F := F)).bufs ⊆ UC := show ({x1', k'} : Finset (DevRef τ sig)) ⊆ UC by decide
theorem h2 : (op2 (F := F)).bufs ⊆ UC := show ({x2', v'} : Finset (DevRef τ sig)) ⊆ UC by decide
theorem h3 : (op3 (F := F)).bufs ⊆ UC := show ({ok', r3'} : Finset (DevRef τ sig)) ⊆ UC by decide
theorem h4 : (op4 (F := F)).bufs ⊆ UC := show ({ov', r4'} : Finset (DevRef τ sig)) ⊆ UC by decide

/-- The launch contents; after the two flattenings; after the call; after the two un-flattenings. -/
def V0 (d : Dev nD) : Valuation τ sig (Elt F) := fun b => m (d, b)
def V2 (d : Dev nD) : Valuation τ sig (Elt F) := (op2 (F := F)).result ((op1 (F := F)).result (V0 m d))
def srcK (d : Dev nD) : Flat F := V2 m d k'
def srcV (d : Dev nD) : Flat F := V2 m d v'
def oldK (d : Dev nD) : Flat F := V2 m d ok'
def oldV (d : Dev nD) : Flat F := V2 m d ov'
def V3 (d : Dev nD) : Valuation τ sig (Elt F) := Function.update (Function.update (V2 m d) ok' (srcK m d)) ov' (srcV m d)
def V5 (d : Dev nD) : Valuation τ sig (Elt F) := (op4 (F := F)).result ((op3 (F := F)).result (V3 m d))

/-- The call's payloads at this run's contents. -/
abbrev PP : (K (F := F)).Pay (nD := nD) (Val := Elt F) (Name := ℕ) (U := UU) := P (srcK m) (srcV m) (oldK m) (oldV m)

theorem unscoped_held (d : Dev nD) :
    (unscopedBufs d (fun b => m ((SparseCore.T d).loc b)) : sProp 𝕄) = held (SparseCore.T d) UC (V0 m d) :=
  Pipeline.unscopedBufs_held (Ix := HIx 1) (Name := ℕ) (U := UU) (Lvl := ℕ) d (V0 m d)

theorem st0_eq (d : Dev nD) :
    (bigSep Finset.univ fun c : Fin ((K (F := F)).nCore 0) => (PP m).st 0 d c)
      = iprop((kLoc d ↦{fullShare} srcK m d) ∗ (vLoc d ↦{fullShare} srcV m d) ∗ (okLoc d ↦{fullShare} oldK m d) ∗ (ovLoc d ↦{fullShare} oldV m d)) :=
  shares_whole d (srcK m d) (srcV m d) (oldK m d) (oldV m d)
theorem dn0_eq (d : Dev nD) :
    (bigSep Finset.univ fun c : Fin ((K (F := F)).nCore 0) => (PP m).dn 0 d c)
      = iprop((kLoc d ↦{fullShare} srcK m d) ∗ (vLoc d ↦{fullShare} srcV m d) ∗ (okLoc d ↦{fullShare} srcK m d) ∗ (ovLoc d ↦{fullShare} srcV m d)) :=
  shares_whole d (srcK m d) (srcV m d) (srcK m d) (srcV m d)

/-- After the call the device's arrays are at the valuation with the flat destinations at the flat sources. -/
theorem held_V3 (d : Dev nD) :
    (held (SparseCore.T d) UC (V3 m d) : sProp 𝕄)
      = iprop(((kLoc d ↦{fullShare} srcK m d) ∗ (vLoc d ↦{fullShare} srcV m d) ∗ (okLoc d ↦{fullShare} srcK m d) ∗ (ovLoc d ↦{fullShare} srcV m d))
          ∗ held (SparseCore.T d) (UC \ T4) (V2 m d)) := by
  rw [held_four d (V3 m d)]
  have e1 : V3 m d k' = srcK m d := by
    unfold V3; rw [Function.update_of_ne (show k' ≠ ov' by decide), Function.update_of_ne (show k' ≠ ok' by decide)]; rfl
  have e2 : V3 m d v' = srcV m d := by
    unfold V3; rw [Function.update_of_ne (show v' ≠ ov' by decide), Function.update_of_ne (show v' ≠ ok' by decide)]; rfl
  have e3 : V3 m d ok' = srcK m d := by
    unfold V3; rw [Function.update_of_ne (show ok' ≠ ov' by decide), Function.update_self]
  have e4 : V3 m d ov' = srcV m d := by
    unfold V3; rw [Function.update_self]
  rw [e1, e2, e3, e4]
  congr 1

/-- What @main leaves the claim: every array of the device at its final contents. -/
abbrev FIN (d : Dev nD) : sProp 𝕄 := held (SparseCore.T d) UC (V5 m d)

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two flattenings
  iapply (wp_hlo_within 𝒱 (SparseCore.T d) none Set.univ (op := op1) (S := UC) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := UC) h2 (V := (op1 (F := F)).result (V0 m d))) $$ [Hb Hheld]
  · isplitl [Hb]; · iexact Hb
    iexact Hheld
  iintro ⟨Hb, Hheld⟩
  rw [wp_ret]; imodintro
  -- the call: the four flat arrays out of the device's arrays, cut into the 32 shares, and back
  rw [show (op2 (F := F)).result ((op1 (F := F)).result (V0 m d)) = V2 m d from rfl]
  ihave Hh := (Entails.of_eq (held_four (F := F) d (V2 m d))) $$ Hheld
  icases Hh with ⟨⟨Hk, Hv, Hok, Hov⟩, Hrest⟩
  iapply ((K (F := F)).wp_run (D (F := F)) 𝒱 (EH := EH) (P := PP m) κ d 0) $$ [Hst Hk Hv Hok Hov Hb Hrest]
  isplitr; · iexact Hctx
  isplitl [Hst]; · iexact Hst
  isplitl [Hk Hv Hok Hov]
  · rw [st0_eq]
    isplitl [Hk]; · iexact Hk
    isplitl [Hv]; · iexact Hv
    isplitl [Hok]; · iexact Hok
    iexact Hov
  iintro ⟨Hst, Hdn⟩
  ihave Hdn' := (Entails.of_eq (dn0_eq m d)) $$ Hdn
  icases Hdn' with ⟨Hk, Hv, Hok, Hov⟩
  ihave Hheld := (Entails.of_eq (held_V3 m d).symm) $$ [Hk Hv Hok Hov Hrest]
  · isplitl [Hk Hv Hok Hov]
    · isplitl [Hk]; · iexact Hk
      isplitl [Hv]; · iexact Hv
      isplitl [Hok]; · iexact Hok
      iexact Hov
    · iexact Hrest
  -- the two un-flattenings
  iapply (wp_hlo_within 𝒱 (SparseCore.T d) none Set.univ (op := op3) (S := UC) h3 (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := UC) h4 (V := (op3 (F := F)).result (V3 m d))) $$ [Hb Hheld]
  · isplitl [Hb]; · iexact Hb
    iexact Hheld
  iintro ⟨Hb, Hheld⟩
  rw [wp_ret]; imodintro; imodintro
  isplitl [Hst]; · iexact Hst
  iexact Hheld

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair _ _) $$ Hu
  icases H with ⟨HH, -⟩
  imodintro
  isplitl [HH]; · iexact HH
  isplitr; · rw [bigSep_emp']; iempintro
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the final memory -/

omit [FloatOps F] in
/-- Arrays held whole at a valuation are, in any state the assertion holds of, at that valuation. -/
theorem held_agree (d : Dev nD) (W : Valuation τ sig (Elt F)) (s' : Phys nD τ sig (Elt F)) (S : Finset (DevRef τ sig)) :
    iprop(held (SparseCore.T d) S W ∗ SI s') ⊢ (⌜∀ b ∈ S, s'.mem.mem (d, b) = W b⌝ : sProp 𝕄) := by
  induction S using Finset.induction_on with
  | empty =>
    iintro -
    ipureintro
    intro b hb
    exact absurd hb (Finset.notMem_empty b)
  | insert b S hb ih =>
    unfold held at ih ⊢
    rw [SparseCore.bigSep_insert' hb]
    iintro ⟨⟨Hb, HS⟩, HSI⟩
    ihave H := (persistent_entails_right (SI_pointsTo_agree (st := s') (ℓ := (d, b)) (I := Finset.univ) (q := fullShare) (f := W b))) $$ [HSI Hb]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | h
    · exact funext fun i => h1 i (Finset.mem_univ i)
    · exact h2 b' h

def fq (d : Dev nD) (s' : Phys nD τ sig (Elt F)) : Prop := ∀ b ∈ UC, s'.mem.mem (d, b) = V5 m d b

theorem hfin (d : Dev nD) (s' : Phys nD τ sig (Elt F)) : iprop(FIN m d ∗ SI s') ⊢ (⌜fq m d s'⌝ : sProp 𝕄) :=
  held_agree d (V5 m d) s' UC

/-! ## The final contents -/

/-- An array none of the four re-indexings writes and the call does not fill keeps its launch contents. -/
theorem V5_kept (d : Dev nD) (b : DevRef τ sig) (h4' : b ∉ ({r4'} : Finset (DevRef τ sig))) (h3' : b ∉ ({r3'} : Finset (DevRef τ sig)))
    (hov : b ≠ ov') (hok : b ≠ ok') (h2' : b ∉ ({v'} : Finset (DevRef τ sig))) (h1' : b ∉ ({k'} : Finset (DevRef τ sig))) :
    V5 m d b = m (d, b) := by
  unfold V5
  rw [(op4 (F := F)).result_of_not_mem _ h4', (op3 (F := F)).result_of_not_mem _ h3']
  unfold V3
  rw [Function.update_of_ne hov, Function.update_of_ne hok]
  unfold V2
  rw [(op2 (F := F)).result_of_not_mem _ h2', (op1 (F := F)).result_of_not_mem _ h1']
  rfl

/-- The flat copy of the first value array. -/
theorem srcK_eq (d : Dev nD) : srcK m d = shapeCast S67108864 (m (d, x1')) Facts₀.shapeCasts_S16x16x2048x128_S67108864 := by
  unfold srcK V2
  rw [(op2 (F := F)).result_of_not_mem _ (show k' ∉ ({v'} : Finset (DevRef τ sig)) by decide)]
  exact StableHlo.reshape_result' (x := main_arg1) (y := main_v0) rfl Facts₀.shapeCasts_S16x16x2048x128_S67108864 _ _ (V0 m d)
theorem srcV_eq (d : Dev nD) : srcV m d = shapeCast S67108864 (m (d, x2')) Facts₀.shapeCasts_S16x16x2048x128_S67108864 := by
  unfold srcV V2
  exact StableHlo.reshape_result' (x := main_arg2) (y := main_v1) rfl Facts₀.shapeCasts_S16x16x2048x128_S67108864 _ _ ((op1 (F := F)).result (V0 m d))

theorem V3_ok (d : Dev nD) : V3 m d ok' = srcK m d := by
  unfold V3; rw [Function.update_of_ne (show ok' ≠ ov' by decide), Function.update_self]
theorem V3_ov (d : Dev nD) : V3 m d ov' = srcV m d := by
  unfold V3; rw [Function.update_self]

/-- The first result: the first value array flattened, copied, and un-flattened — the array itself. -/
theorem V5_r3 (d : Dev nD) : V5 m d r3' = m (d, x1') := by
  unfold V5
  rw [(op4 (F := F)).result_of_not_mem _ (show r3' ∉ ({r4'} : Finset (DevRef τ sig)) by decide)]
  refine (StableHlo.reshape_result' (x := main_v2_0) (y := main_v3) rfl Facts₀.shapeCasts_S67108864_S16x16x2048x128 _ _ (V3 m d)).trans ?_
  show shapeCast S16x16x2048x128 (V3 m d ok') Facts₀.shapeCasts_S67108864_S16x16x2048x128 = _
  rw [V3_ok, srcK_eq]
  exact shapeCast_shapeCast _ _ _
/-- The second result, likewise the second value array. -/
theorem V5_r4 (d : Dev nD) : V5 m d r4' = m (d, x2') := by
  unfold V5
  refine (StableHlo.reshape_result' (x := main_v2_1) (y := main_v4) rfl Facts₀.shapeCasts_S67108864_S16x16x2048x128 _ _ ((op3 (F := F)).result (V3 m d))).trans ?_
  show shapeCast S16x16x2048x128 ((op3 (F := F)).result (V3 m d) ov') Facts₀.shapeCasts_S67108864_S16x16x2048x128 = _
  rw [(op3 (F := F)).result_of_not_mem _ (show ov' ∉ ({r3'} : Finset (DevRef τ sig)) by decide), V3_ov, srcV_eq]
  exact shapeCast_shapeCast _ _ _

/-! ## The program's run -/

/-- Every weakly fair execution ends with the two results at the two value arrays and every argument unchanged. -/
def QC : PUnit × MemSt nD τ sig (Elt F) → Prop := fun r => ∀ c : Dev nD,
  r.2.mem ((c.tc : Thread nD τ).loc main_v3) = m ((c.tc : Thread nD τ).loc main_arg1)
  ∧ r.2.mem ((c.tc : Thread nD τ).loc main_v4) = m ((c.tc : Thread nD τ).loc main_arg2)
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem kept_arg (d : Dev nD) (b : DevRef τ sig) (hb : b ∈ ({x0', x1', x2', x3', x4', x5'} : Finset (DevRef τ sig))) : V5 m d b = m (d, b) := by
  have h : b ∉ ({r4'} : Finset (DevRef τ sig)) ∧ b ∉ ({r3'} : Finset (DevRef τ sig)) ∧ b ≠ ov' ∧ b ≠ ok'
      ∧ b ∉ ({v'} : Finset (DevRef τ sig)) ∧ b ∉ ({k'} : Finset (DevRef τ sig)) := by
    revert b; decide
  exact V5_kept m d b h.1 h.2.1 h.2.2.1 h.2.2.2.1 h.2.2.2.2.1 h.2.2.2.2.2

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (srcK m) (srcV m) (oldK m) (oldV m))
    (fun q _ => match q with | 0 => SparseCore.Cfg.VecSplit.of_plain (vecSplit (srcK m) (srcV m) (oldK m) (oldV m)))
    m ρ main (fun _ => iprop(emp)) (FIN m) (u₀ (F := F)) (sep_elim_left.trans (hu₀ m)) (hmain m ρ) (fq m) (hfin m) (QC m)
    (fun s' h c => ⟨(h c r3' (by decide)).trans (V5_r3 m c), (h c r4' (by decide)).trans (V5_r4 m c),
      (h c x0' (by decide)).trans (kept_arg m c x0' (by decide)), (h c x1' (by decide)).trans (kept_arg m c x1' (by decide)),
      (h c x2' (by decide)).trans (kept_arg m c x2' (by decide)), (h c x3' (by decide)).trans (kept_arg m c x3' (by decide)),
      (h c x4' (by decide)).trans (kept_arg m c x4' (by decide)), (h c x5' (by decide)).trans (kept_arg m c x5' (by decide))⟩)

end Cert.Proof.BitsFill

end
-- ==== Proof.lean ====
/-
  The certificate of the cache-fill copy kernel against its reference.

  The kernel flattens the two value arrays (16·16·2048·128 words each), has the 32 vector subcores of the two
  SparseCores each copy one piece of 2,097,152 consecutive words of each flat array to the same positions of a flat
  result, and un-flattens the two results. The 32 pieces are pairwise disjoint and cover the flat array, each
  subcore's two copies go to its own pieces on two semaphores of its own and are both waited for before its task
  ends, so every execution ends with the flat results equal to the flat sources; flattening followed by
  un-flattening is the identity re-indexing, so the two results are the two value arrays. No argument array is
  written. This is proved once for the float instance left open and used at the word level and at the ideal level.

  The reference writes the value array's rows over rows 0 … 2047 of the 4096-row cache (row r to the row whose
  number is the r-th entry of 0, 1, …, 2047, pairwise distinct, so every row is written exactly once) and keeps
  rows 0 … 2047: again the value array. So both programs return the two value arrays, whatever the other arguments
  hold; the precondition is not used.
-/
import proofs.«209732_g49563922596461_cont_8to1_c_1115_2_alg».proof.Defs
import proofs.«209732_g49563922596461_cont_8to1_c_1115_2_alg».proof.Proof.Gen.Kernel
import proofs.«209732_g49563922596461_cont_8to1_c_1115_2_alg».proof.Proof.Gen.Kernel.Skeleton
import proofs.«209732_g49563922596461_cont_8to1_c_1115_2_alg».proof.Proof.Gen.KernelIdeal
import proofs.«209732_g49563922596461_cont_8to1_c_1115_2_alg».proof.Proof.Gen.KernelIdeal.Skeleton
import proofs.«209732_g49563922596461_cont_8to1_c_1115_2_alg».proof.Proof.Gen.ReferenceIdeal
import proofs.«209732_g49563922596461_cont_8to1_c_1115_2_alg».proof.Proof.Gen.Pre_input_domain
import proofs.«209732_g49563922596461_cont_8to1_c_1115_2_alg».proof.Proof.Gen.ReferenceIdeal.Run
import proofs.«209732_g49563922596461_cont_8to1_c_1115_2_alg».proof.Proof.Gen.ReferenceIdeal.Read
import proofs.«209732_g49563922596461_cont_8to1_c_1115_2_alg».proof.Proof.RefValue
import proofs.«209732_g49563922596461_cont_8to1_c_1115_2_alg».proof.Proof.IdealMain
import proofs.«209732_g49563922596461_cont_8to1_c_1115_2_alg».proof.Proof.BitsMain
import Idealize.ShloMosaic.Adequacy
import Idealize.ShloMosaic.Init

noncomputable section

namespace Cert.Proof

open Idealize.ShloMosaic Idealize.SL.Sem

/-- The printed program runs to its end and leaves its six arguments as they were. -/
theorem frame_k : Cert.frame_Kernel := fun m ρ _ =>
  (θ_run Cert.Kernel.defs _ _).mono (fun _ h c => (h c).2.2) (Cert.Proof.BitsFill.run_main (F := Bits) m ρ)

/-- So does the idealized program. -/
theorem frame_ki : Cert.frame_KernelIdeal := fun m ρ _ =>
  (θ_run Cert.KernelIdeal.defs _ _).mono (fun _ h c => (h c).2.2) (Cert.Proof.IdealFill.run_main (F := Ideal) m ρ)

/-- And the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the two value arrays as their results. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    Cert.Proof.IdealFill.run_main (F := Ideal) m ρ, ?_⟩
  refine (θ_run Cert.ReferenceIdeal.defs _ _).mono (fun _ h c => ⟨?_, ?_, (h c).2.2⟩)
    (Cert.ReferenceIdeal.Value.run (F := Ideal) m' ρ')
  · exact (h c).1.trans ((Cert.ReferenceIdeal.RefValue.val_v24 (F := Ideal)
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg3))).trans (hagree c).2.1)
  · exact (h c).2.1.trans ((Cert.ReferenceIdeal.RefValue.val_v25 (F := Ideal)
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg4))).trans (hagree c).2.2.1)

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
